-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x2048 : Shape := ⟨2, ![1024, 2048]⟩
abbrev S1024 : Shape := ⟨1, ![1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part4 {F : FTy → Type} [FloatOps F] (main_arg14 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  main_v73

def fn_part3 {F : FTy → Type} [FloatOps F] (main_arg11 : FVec F S1024x1024 .f32) (main_arg12 : FVec F S1024 .f32) (main_arg13 : FVec F S1024x1024 .f32) (main_arg14 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_v63 main_v67

def fn_part2 {F : FTy → Type} [FloatOps F] (main_arg7 : FVec F S1024x2048 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_v33 : IVec S_ 1) : IVec S_ 1 :=
  let main_v34 : FVec F S1024x2048 .f32 := Host.absf main_arg7
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_v48 main_v49 main_v50

def fn_part1 {F : FTy → Type} [FloatOps F] (main_arg4 : FVec F S1024 .f32) (main_arg5 : FVec F S1024x2048 .f32) (main_arg6 : FVec F S1024 .f32) (main_arg7 : FVec F S1024x2048 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x1024 .f32) (main_arg1 : FVec F S4096x1024 .f32) (main_arg2 : FVec F S4096x1024 .f32) (main_arg3 : FVec F S1024x2048 .f32) (main_arg4 : FVec F S1024 .f32) (main_arg5 : FVec F S1024x2048 .f32) (main_arg6 : FVec F S1024 .f32) (main_arg7 : FVec F S1024x2048 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x1024 : Shape := ⟨2, ![4096, 1024]⟩
abbrev S1024x2048 : Shape := ⟨2, ![1024, 2048]⟩
abbrev S1024 : Shape := ⟨1, ![1024]⟩
abbrev S1024x1024 : Shape := ⟨2, ![1024, 1024]⟩
abbrev S1024x5120 : Shape := ⟨2, ![1024, 5120]⟩
abbrev S1024x4096 : Shape := ⟨2, ![1024, 4096]⟩
abbrev S5120 : Shape := ⟨1, ![5120]⟩
abbrev S1x5120 : Shape := ⟨2, ![1, 5120]⟩
abbrev S128x1024 : Shape := ⟨2, ![128, 1024]⟩
abbrev S128x5120 : Shape := ⟨2, ![128, 5120]⟩
abbrev S128x4096 : Shape := ⟨2, ![128, 4096]⟩
abbrev S128x3072 : Shape := ⟨2, ![128, 3072]⟩

abbrev nBuf : Space → Nat
  | .hbm => 39
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S1024x5120, .f32⟩
  | .hbm, ⟨27, _⟩ => ⟨S1024x5120, .bf16⟩
  | .hbm, ⟨28, _⟩ => ⟨S1024x1024, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S1024x4096, .f32⟩
  | .hbm, ⟨33, _⟩ => ⟨S1024x4096, .bf16⟩
  | .hbm, ⟨34, _⟩ => ⟨S1024, .f32⟩
  | .hbm, ⟨35, _⟩ => ⟨S5120, .f32⟩
  | .hbm, ⟨36, _⟩ => ⟨S1x5120, .f32⟩
  | .hbm, ⟨37, _⟩ => ⟨S4096x1024, .f32⟩
  | .hbm, ⟨38, _⟩ => ⟨S4096x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1024x5120, .bf16⟩
  | .local _ .vmem, ⟨7, _⟩ => ⟨S1x5120, .f32⟩
  | .local _ .vmem, ⟨8, _⟩ => ⟨S1024x4096, .bf16⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22_0 : Ref sig .tc := ⟨.hbm, 37, rfl⟩
abbrev main_v22_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S1024x2048_S1024x1024_0_0 : S1024x2048.Slices ![0, 0] S1024x1024
  slices_S1024x2048_S1024x1024_0_1024 : S1024x2048.Slices ![0, 1024] S1024x1024
  transposes_S1024x1024_S1024x1024_1_0 : S1024x1024.Transposes [1, 0] S1024x1024
  concatenates_S1024x1024_S1024x1024_S1024x1024_S1024x1024_S1024x1024_S1024x5120_d1 : Shape.Concatenates [S1024x1024, S1024x1024, S1024x1024, S1024x1024, S1024x1024] S1024x5120 1
  bitsLt_bf16_f32 : FTy.bits .bf16 < FTy.bits .f32
  concatenates_S1024x1024_S1024x1024_S1024x1024_S1024x1024_S1024x4096_d1 : Shape.Concatenates [S1024x1024, S1024x1024, S1024x1024, S1024x1024] S1024x4096 1
  concatenates_S1024_S1024_S1024_S1024_S1024_S5120_d0 : Shape.Concatenates [S1024, S1024, S1024, S1024, S1024] S5120 0
  shapeCasts_S5120_S1x5120 : S5120.ShapeCasts S1x5120
  inb_S128x1024_S128x1024_0_0 : ∀ a, (![0, 0] : Fin 2 → Nat) a + S128x1024.size a ≤ S128x1024.size a
  h_S128x1024 : 0 < S128x1024.numel
  inb_S1024x5120_S1024x5120_0_0 : ∀ a, (![0, 0] : Fin 2 → Nat) a + S1024x5120.size a ≤ S1024x5120.size a
  h_S1024x5120 : 0 < S1024x5120.numel
  shapeCasts_S1024x5120_S1024x5120 : S1024x5120.ShapeCasts S1024x5120
  inb_S1x5120_S1x5120_0_0 : ∀ a, (![0, 0] : Fin 2 → Nat) a + S1x5120.size a ≤ S1x5120.size a
  h_S1x5120 : 0 < S1x5120.numel
  shapeCasts_S1x5120_S1x5120 : S1x5120.ShapeCasts S1x5120
  broadcasts_S1x5120_S128x5120 : S1x5120.Broadcasts S128x5120
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  slices_S128x5120_o0_0_S128x4096 : S128x5120.Slices ![0, 0] S128x4096
  slices_S128x5120_o0_4096_S128x1024 : S128x5120.Slices ![0, 4096] S128x1024
  slices_S128x4096_o0_0_S128x3072 : S128x4096.Slices ![0, 0] S128x3072
  slices_S128x3072_o0_0_S128x1024 : S128x3072.Slices ![0, 0] S128x1024
  slices_S128x3072_o0_1024_S128x1024 : S128x3072.Slices ![0, 1024] S128x1024
  slices_S128x3072_o0_2048_S128x1024 : S128x3072.Slices ![0, 2048] S128x1024
  slices_S128x4096_o0_3072_S128x1024 : S128x4096.Slices ![0, 3072] S128x1024
  dot_S128x1024_S1024x5120_S128x5120_1_0_0_1_n_n_wf : DotDims.WF S128x1024 S1024x5120 S128x5120 [1] [0] [0] [1] [] []
  dot_S128x1024_S1024x4096_S128x4096_1_0_0_1_n_n_wf : DotDims.WF S128x1024 S1024x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S4096x1024.size a
  hwx0_1 : ∀ i : grid0.Coords, EltTy.bits .f32 = 32 ∨ (Rect.block (s := S4096x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S4096x1024.size a
  hwx0_2 : ∀ i : grid0.Coords, EltTy.bits .f32 = 32 ∨ (Rect.block (s := S4096x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x5120.size a ≤ S1024x5120.size a
  hwx0_3 : ∀ i : grid0.Coords, EltTy.bits .bf16 = 32 ∨ (Rect.block (s := S1024x5120) S1024x5120.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x5120.size a ≤ S1x5120.size a
  hwx0_4 : ∀ i : grid0.Coords, EltTy.bits .f32 = 32 ∨ (Rect.block (s := S1x5120) S1x5120.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x4096.size a ≤ S1024x4096.size a
  hwx0_5 : ∀ i : grid0.Coords, EltTy.bits .bf16 = 32 ∨ (Rect.block (s := S1024x4096) S1024x4096.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S4096x1024.size a
  hwx0_6 : ∀ i : grid0.Coords, EltTy.bits .f32 = 32 ∨ (Rect.block (s := S4096x1024) S128x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S4096x1024.size a
  hwx0_7 : ∀ i : grid0.Coords, EltTy.bits .f32 = 32 ∨ (Rect.block (s := S4096x1024) S128x1024.size (cc0_transform_7 i) (hinb0_7 i)).WholeWords (EltTy.packing .f32)

variable [Facts₀]

def dot_S128x1024_S1024x5120_S128x5120_1_0_0_1_n_n : DotDims S128x1024 S1024x5120 S128x5120 where
  lhsContracting := [1]
  rhsContracting := [0]
  lhsNonContracting := [0]
  rhsNonContracting := [1]
  lhsBatch := []
  rhsBatch := []
  wf := dot_S128x1024_S1024x5120_S128x5120_1_0_0_1_n_n_wf
def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1024x5120.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x5120.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1024x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22_0) S128x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v22_1) S128x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x2048 : Shape := ⟨2, ![1024, 2048]⟩
abbrev S1024 : Shape := ⟨1, ![1024]⟩
abbrev S1024x1024 : Shape := ⟨2, ![1024, 1024]⟩
abbrev S4096x2048 : Shape := ⟨2, ![4096, 2048]⟩
abbrev S3072x2048 : Shape := ⟨2, ![3072, 2048]⟩
abbrev S3072 : Shape := ⟨1, ![3072]⟩
abbrev S2048x3072 : Shape := ⟨2, ![2048, 3072]⟩
abbrev S4096x3072 : Shape := ⟨2, ![4096, 3072]⟩
abbrev S1x3072 : Shape := ⟨2, ![1, 3072]⟩
abbrev S_ : Shape := ⟨0, ![]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S4096x2048, .f32⟩
  | .hbm, ⟨16, _⟩ => ⟨S3072x2048, .f32⟩
  | .hbm, ⟨17, _⟩ => ⟨S3072, .f32⟩
  | .hbm, ⟨18, _⟩ => ⟨S2048x3072, .f32⟩
  | .hbm, ⟨19, _⟩ => ⟨S4096x3072, .f32⟩
  | .hbm, ⟨20, _⟩ => ⟨S1x3072, .f32⟩
  | .hbm, ⟨21, _⟩ => ⟨S4096x3072, .f32⟩
  | .hbm, ⟨22, _⟩ => ⟨S4096x3072, .f32⟩
  | .hbm, ⟨23, _⟩ => ⟨S4096x3072, .f32⟩
  | .hbm, ⟨24, _⟩ => ⟨S4096x3072, .f32⟩
  | .hbm, ⟨25, _⟩ => ⟨S_, .f32⟩
  | .hbm, ⟨26, _⟩ => ⟨S4096x3072, .f32⟩
  | .hbm, ⟨27, _⟩ => ⟨S4096x3072, .f32⟩
  | .hbm, ⟨28, _⟩ => ⟨S_, .f32⟩
  | .hbm, ⟨29, _⟩ => ⟨S4096x3072, .f32⟩
  | .hbm, ⟨30, _⟩ => ⟨S4096x3072, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S1024x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S1024x1024, .f32⟩
  | .hbm, ⟨40, _⟩ => ⟨S4096x1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S1024x1024, .f32⟩
  | .hbm, ⟨45, _⟩ => ⟨S4096x1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]

class Facts₀ : Prop where
  concatenates_S4096x1024_S4096x1024_S4096x2048_d1 : Shape.Concatenates [S4096x1024, S4096x1024] S4096x2048 1
  concatenates_S1024x2048_S1024x2048_S1024x2048_S3072x2048_d0 : Shape.Concatenates [S1024x2048, S1024x2048, S1024x2048] S3072x2048 0
  concatenates_S1024_S1024_S1024_S3072_d0 : Shape.Concatenates [S1024, S1024, S1024] S3072 0
  transposes_S3072x2048_S2048x3072_1_0 : S3072x2048.Transposes [1, 0] S2048x3072
  bcast_S3072_S1x3072_1 : S3072.BroadcastsInDim S1x3072 (![1] : Fin 1 → Fin S1x3072.rank)
  bcast_S1x3072_S4096x3072_0_1 : S1x3072.BroadcastsInDim S4096x3072 (![0, 1] : Fin 2 → Fin S4096x3072.rank)
  bcast_S_S4096x3072 : S_.BroadcastsInDim S4096x3072 (![] : Fin 0 → Fin S4096x3072.rank)
  slices_S4096x3072_S4096x1024_0_0 : S4096x3072.Slices ![0, 0] S4096x1024
  slices_S4096x3072_S4096x1024_0_1024 : S4096x3072.Slices ![0, 1024] S4096x1024
  slices_S4096x3072_S4096x1024_0_2048 : S4096x3072.Slices ![0, 2048] S4096x1024
  transposes_S1024x1024_S1024x1024_1_0 : S1024x1024.Transposes [1, 0] S1024x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  dot_S4096x2048_S2048x3072_S4096x3072_1_0_0_1_n_n_wf : DotDims.WF S4096x2048 S2048x3072 S4096x3072 [1] [0] [0] [1] [] []
  dot_S4096x1024_S1024x1024_S4096x1024_1_0_0_1_n_n_wf : DotDims.WF S4096x1024 S1024x1024 S4096x1024 [1] [0] [0] [1] [] []

variable [Facts₀]

def dot_S4096x2048_S2048x3072_S4096x3072_1_0_0_1_n_n : DotDims S4096x2048 S2048x3072 S4096x3072 where
  lhsContracting := [1]
  rhsContracting := [0]
  lhsNonContracting := [0]
  rhsNonContracting := [1]
  lhsBatch := []
  rhsBatch := []
  wf := dot_S4096x2048_S2048x3072_S4096x3072_1_0_0_1_n_n_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf

class Facts : Prop extends Facts₀ where

variable [Facts]
-- ==== Proof.CellFrameBits.lean ====
/-
  The launch of the fused recurrent cell, run to its end.

  Ahead of the launch the host lays the gate weights out: the input-side halves of the three gate matrices, of the
  candidate matrix and of the scale matrix transposed and set side by side (1024 × 5120), the state-side halves
  likewise (1024 × 4096), and the five bias vectors end to end as one row of 5120. The launch then walks the 4096
  batch rows in 32 tiles of 128: a tile of the input, of the previous hidden state and of the previous cell state is
  brought in at every step, the two weight slabs and the bias row once, and a tile of the new hidden state and of
  the new cell state is written back at every step.

  This module says what each written tile holds — the body's two stored values as functions of the six tiles it
  read — shows that one step of the body leaves exactly that, and concludes that the whole program terminates, faults
  nowhere, leaves its fifteen argument arrays as they were, and ends with each result array assembled from the
  written tiles. Nothing here depends on how floats are read: it holds at every instance.
-/
import proofs.«180327_j54150947668389_2_alg».proof.Proof.Gen.Kernel.Launch
import proofs.«180327_j54150947668389_2_alg».proof.Proof.Gen.Kernel.Skeleton
import proofs.«180327_j54150947668389_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines ahead of the launch -/

/-- The device's arrays as the launch finds them: the start contents carried through the host's slices,
    transposes, concatenations, conversions, the bias sum and the reshape. -/
abbrev V (c : Dev nD) (b : Ref sig .tc) : Buf (Elt F) ((c : Thread nD τ).loc b) :=
  StableHlo.after (List.flatten [hostOps0]) (fun b => m (c, b)) b

/-- None of those lines allocates. -/
theorem hostOps0_fresh : (hostOps0 : List (HloOp τ sig (Elt F))).Forall fun op => op.fresh = ∅ := by
  simp only [List.Forall]; repeat' constructor

/-- The program is those lines followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation ahead of the launch writes argument 0: the launch finds it as it was at the start. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the launch writes argument 1: the launch finds it as it was at the start. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the launch writes argument 2: the launch finds it as it was at the start. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the launch writes argument 3: the launch finds it as it was at the start. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the launch writes argument 4: the launch finds it as it was at the start. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the launch writes argument 5: the launch finds it as it was at the start. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the launch writes argument 6: the launch finds it as it was at the start. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the launch writes argument 7: the launch finds it as it was at the start. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the launch writes argument 8: the launch finds it as it was at the start. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the launch writes argument 9: the launch finds it as it was at the start. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the launch writes argument 10: the launch finds it as it was at the start. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the launch writes argument 11: the launch finds it as it was at the start. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the launch writes argument 12: the launch finds it as it was at the start. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the launch writes argument 13: the launch finds it as it was at the start. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the launch writes argument 14: the launch finds it as it was at the start. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-! ## The tiles -/

/-- The tile of array `w` that step `t` works on, read off the array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each read array's current staging buffer holds its tile at every step — brought in at that step, or, for the
    weight slabs and the bias row, brought in at the first step and not moved since. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The argument arrays at the end -/

/-- From a run that ends with every staged array rebuilt from its tiles and every other array as the launch found
    it, the fifteen argument arrays end as they started: the three staged ones are never written back, the other
    twelve are written by no host line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## What one step reads and writes -/

/-- A whole 128 × 1024 tile of rows. -/
abbrev rRows : Rect S128x1024 := Rect.unit (s := S128x1024) ![0, 0] S128x1024.size inb_S128x1024_S128x1024_0_0
/-- The whole input-side weight slab. -/
abbrev rWx : Rect S1024x5120 := Rect.unit (s := S1024x5120) ![0, 0] S1024x5120.size inb_S1024x5120_S1024x5120_0_0
/-- The whole bias row. -/
abbrev rBias : Rect S1x5120 := Rect.unit (s := S1x5120) ![0, 0] S1x5120.size inb_S1x5120_S1x5120_0_0
/-- The whole state-side weight slab. -/
abbrev rWh : Rect S1024x4096 := Rect.unit (s := S1024x4096) ![0, 0] S1024x4096.size inb_S1024x4096_S1024x4096_0_0

/-- The new hidden-state tile: the one value stored over the whole buffer. -/
def outH (x0 : Vec F S128x1024 .f32) (x1 : Vec F S128x1024 .f32) (x2 : Vec F S128x1024 .f32) (x3 : Vec F S1024x5120 .bf16) (x4 : Vec F S1x5120 .f32) (x5 : Vec F S1024x4096 .bf16) : Vec F S128x1024 .f32 :=
  View.canon [⟨rRows, k0_pay5 (View.ld x0 rRows) (View.ld x1 rRows) (View.ld x2 rRows) (View.ld x3 rWx) (View.ld x4 rBias) (View.ld x5 rWh)⟩]

/-- The new cell-state tile: the one value stored over the whole buffer. -/
def outC (x0 : Vec F S128x1024 .f32) (x1 : Vec F S128x1024 .f32) (x2 : Vec F S128x1024 .f32) (x3 : Vec F S1024x5120 .bf16) (x4 : Vec F S1x5120 .f32) (x5 : Vec F S1024x4096 .bf16) : Vec F S128x1024 .f32 :=
  View.canon [⟨rRows, k0_pay4 (View.ld x0 rRows) (View.ld x1 rRows) (View.ld x2 rRows) (View.ld x3 rWx) (View.ld x4 rBias) (View.ld x5 rWh)⟩]

/-- One store over the whole tile covers it. -/
theorem cover_rows (p0 : Vec F S128x1024 .f32) (y : S128x1024.Idx) :
    ∃ pc ∈ ([⟨rRows, p0⟩] : List (View.Piece (Elt F) S128x1024 .f32)), y ∈ pc.1.set :=
  View.cover_of_tiled [⟨rRows, p0⟩] S128x1024.size (by rfl) y

/-! ## One step of the body -/

set_option maxHeartbeats 1000000 in
/-- On whole staging buffers — the six read ones at known contents, the two written ones at anything — the body
    runs to its end, leaves the read buffers as they were and the written ones at `outH` and `outC` of what it read.
    (It loads each written buffer once before storing over it; the loaded value is used by nothing.) -/
theorem sound_kernel (c : Dev nD) (E : Set ℕ) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S1024x5120 .bf16) (harg4 : arg4.IsWhole) (arg5 : Memref sig .tc .vmem S1x5120 .f32) (harg5 : arg5.IsWhole) (arg6 : Memref sig .tc .vmem S1024x4096 .bf16) (harg6 : arg6.IsWhole) (arg7 : Memref sig .tc .vmem S128x1024 .f32) (harg7 : arg7.IsWhole) (arg8 : Memref sig .tc .vmem S128x1024 .f32) (harg8 : arg8.IsWhole)
    (x0 : Vec F S128x1024 .f32) (x1 : Vec F S128x1024 .f32) (x2 : Vec F S128x1024 .f32) (x3 : Vec F S1024x5120 .bf16) (x4 : Vec F S1x5120 .f32) (x5 : Vec F S1024x4096 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outH x0 x1 x2 x3 x4 x5) ∗ owns (c : Thread nD τ) arg8 fullShare (outC x0 x1 x2 x3 x4 x5)) -∗ K ⟨⟩))
      ⊢ wp frame (wpE (defs₀ (F := F)) Variants.none c none) E (cc0__cell_kernel i arg1 harg1 arg2 harg2 arg3 harg3 arg4 harg4 arg5 harg5 arg6 harg6 arg7 harg7 arg8 harg8) K := by
  simp only [cc0__cell_kernel_eq_skeleton]; unfold cc0__cell_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_rows _)
  iexists _; isplitr
  swap; · iexact H7
  ipureintro
  exact View.read_writes_eq_canon _ _ _ (cover_rows _)

/-! ## The bookkeeping of the walk over the tiles -/

/-- After step `t` each read buffer still holds its tile and the two written buffers hold `outH` and `outC` of the six
    tiles of that step; the arrays are as the launch found them; nothing else is touched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outH (iblk m c 0 t) (iblk m c 1 t) (iblk m c 2 t) (iblk m c 3 t) (iblk m c 4 t) (iblk m c 5 t) := by dsimp only [dats]
theorem after7 (c : Dev nD) (t : Fin cfg0.N) : (dats m 0 c).after 7 t = outC (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## Every step meets its obligation -/

/-- What the walk hands the body at step `t`, buffer by buffer, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it expects back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- At any step the read buffers hold their tiles, so one step of the body applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The whole run -/

set_option backward.isDefEq.respectTransparency.types false in
/-- From any memory with the counters at zero, every weakly fair execution of the program ends, nothing faulting,
    with every staged array rebuilt from what the steps wrote back and every other array as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to its end and its fifteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Cell

end
-- ==== Proof.CellFrameIdeal.lean ====
/-
  The launch of the fused recurrent cell, run to its end.

  Ahead of the launch the host lays the gate weights out: the input-side halves of the three gate matrices, of the
  candidate matrix and of the scale matrix transposed and set side by side (1024 × 5120), the state-side halves
  likewise (1024 × 4096), and the five bias vectors end to end as one row of 5120. The launch then walks the 4096
  batch rows in 32 tiles of 128: a tile of the input, of the previous hidden state and of the previous cell state is
  brought in at every step, the two weight slabs and the bias row once, and a tile of the new hidden state and of
  the new cell state is written back at every step.

  This module says what each written tile holds — the body's two stored values as functions of the six tiles it
  read — shows that one step of the body leaves exactly that, and concludes that the whole program terminates, faults
  nowhere, leaves its fifteen argument arrays as they were, and ends with each result array assembled from the
  written tiles. Nothing here depends on how floats are read: it holds at every instance.
-/
import proofs.«180327_j54150947668389_2_alg».proof.Proof.Gen.KernelIdeal.Launch
import proofs.«180327_j54150947668389_2_alg».proof.Proof.Gen.KernelIdeal.Skeleton
import proofs.«180327_j54150947668389_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines ahead of the launch -/

/-- The device's arrays as the launch finds them: the start contents carried through the host's slices,
    transposes, concatenations, conversions, the bias sum and the reshape. -/
abbrev V (c : Dev nD) (b : Ref sig .tc) : Buf (Elt F) ((c : Thread nD τ).loc b) :=
  StableHlo.after (List.flatten [hostOps0]) (fun b => m (c, b)) b

/-- None of those lines allocates. -/
theorem hostOps0_fresh : (hostOps0 : List (HloOp τ sig (Elt F))).Forall fun op => op.fresh = ∅ := by
  simp only [List.Forall]; repeat' constructor

/-- The program is those lines followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation ahead of the launch writes argument 0: the launch finds it as it was at the start. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the launch writes argument 1: the launch finds it as it was at the start. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the launch writes argument 2: the launch finds it as it was at the start. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the launch writes argument 3: the launch finds it as it was at the start. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the launch writes argument 4: the launch finds it as it was at the start. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the launch writes argument 5: the launch finds it as it was at the start. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the launch writes argument 6: the launch finds it as it was at the start. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the launch writes argument 7: the launch finds it as it was at the start. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the launch writes argument 8: the launch finds it as it was at the start. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the launch writes argument 9: the launch finds it as it was at the start. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the launch writes argument 10: the launch finds it as it was at the start. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the launch writes argument 11: the launch finds it as it was at the start. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the launch writes argument 12: the launch finds it as it was at the start. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the launch writes argument 13: the launch finds it as it was at the start. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the launch writes argument 14: the launch finds it as it was at the start. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-! ## The tiles -/

/-- The tile of array `w` that step `t` works on, read off the array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each read array's current staging buffer holds its tile at every step — brought in at that step, or, for the
    weight slabs and the bias row, brought in at the first step and not moved since. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The argument arrays at the end -/

/-- From a run that ends with every staged array rebuilt from its tiles and every other array as the launch found
    it, the fifteen argument arrays end as they started: the three staged ones are never written back, the other
    twelve are written by no host line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## What one step reads and writes -/

/-- A whole 128 × 1024 tile of rows. -/
abbrev rRows : Rect S128x1024 := Rect.unit (s := S128x1024) ![0, 0] S128x1024.size inb_S128x1024_S128x1024_0_0
/-- The whole input-side weight slab. -/
abbrev rWx : Rect S1024x5120 := Rect.unit (s := S1024x5120) ![0, 0] S1024x5120.size inb_S1024x5120_S1024x5120_0_0
/-- The whole bias row. -/
abbrev rBias : Rect S1x5120 := Rect.unit (s := S1x5120) ![0, 0] S1x5120.size inb_S1x5120_S1x5120_0_0
/-- The whole state-side weight slab. -/
abbrev rWh : Rect S1024x4096 := Rect.unit (s := S1024x4096) ![0, 0] S1024x4096.size inb_S1024x4096_S1024x4096_0_0

/-- The new hidden-state tile: the one value stored over the whole buffer. -/
def outH (x0 : Vec F S128x1024 .f32) (x1 : Vec F S128x1024 .f32) (x2 : Vec F S128x1024 .f32) (x3 : Vec F S1024x5120 .bf16) (x4 : Vec F S1x5120 .f32) (x5 : Vec F S1024x4096 .bf16) : Vec F S128x1024 .f32 :=
  View.canon [⟨rRows, k0_pay5 (View.ld x0 rRows) (View.ld x1 rRows) (View.ld x2 rRows) (View.ld x3 rWx) (View.ld x4 rBias) (View.ld x5 rWh)⟩]

/-- The new cell-state tile: the one value stored over the whole buffer. -/
def outC (x0 : Vec F S128x1024 .f32) (x1 : Vec F S128x1024 .f32) (x2 : Vec F S128x1024 .f32) (x3 : Vec F S1024x5120 .bf16) (x4 : Vec F S1x5120 .f32) (x5 : Vec F S1024x4096 .bf16) : Vec F S128x1024 .f32 :=
  View.canon [⟨rRows, k0_pay4 (View.ld x0 rRows) (View.ld x1 rRows) (View.ld x2 rRows) (View.ld x3 rWx) (View.ld x4 rBias) (View.ld x5 rWh)⟩]

/-- One store over the whole tile covers it. -/
theorem cover_rows (p0 : Vec F S128x1024 .f32) (y : S128x1024.Idx) :
    ∃ pc ∈ ([⟨rRows, p0⟩] : List (View.Piece (Elt F) S128x1024 .f32)), y ∈ pc.1.set :=
  View.cover_of_tiled [⟨rRows, p0⟩] S128x1024.size (by rfl) y

/-! ## One step of the body -/

set_option maxHeartbeats 1000000 in
/-- On whole staging buffers — the six read ones at known contents, the two written ones at anything — the body
    runs to its end, leaves the read buffers as they were and the written ones at `outH` and `outC` of what it read.
    (It loads each written buffer once before storing over it; the loaded value is used by nothing.) -/
theorem sound_kernel (c : Dev nD) (E : Set ℕ) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S1024x5120 .bf16) (harg4 : arg4.IsWhole) (arg5 : Memref sig .tc .vmem S1x5120 .f32) (harg5 : arg5.IsWhole) (arg6 : Memref sig .tc .vmem S1024x4096 .bf16) (harg6 : arg6.IsWhole) (arg7 : Memref sig .tc .vmem S128x1024 .f32) (harg7 : arg7.IsWhole) (arg8 : Memref sig .tc .vmem S128x1024 .f32) (harg8 : arg8.IsWhole)
    (x0 : Vec F S128x1024 .f32) (x1 : Vec F S128x1024 .f32) (x2 : Vec F S128x1024 .f32) (x3 : Vec F S1024x5120 .bf16) (x4 : Vec F S1x5120 .f32) (x5 : Vec F S1024x4096 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outH x0 x1 x2 x3 x4 x5) ∗ owns (c : Thread nD τ) arg8 fullShare (outC x0 x1 x2 x3 x4 x5)) -∗ K ⟨⟩))
      ⊢ wp frame (wpE (defs₀ (F := F)) Variants.none c none) E (cc0__cell_kernel i arg1 harg1 arg2 harg2 arg3 harg3 arg4 harg4 arg5 harg5 arg6 harg6 arg7 harg7 arg8 harg8) K := by
  simp only [cc0__cell_kernel_eq_skeleton]; unfold cc0__cell_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_rows _)
  iexists _; isplitr
  swap; · iexact H7
  ipureintro
  exact View.read_writes_eq_canon _ _ _ (cover_rows _)

/-! ## The bookkeeping of the walk over the tiles -/

/-- After step `t` each read buffer still holds its tile and the two written buffers hold `outH` and `outC` of the six
    tiles of that step; the arrays are as the launch found them; nothing else is touched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outH (iblk m c 0 t) (iblk m c 1 t) (iblk m c 2 t) (iblk m c 3 t) (iblk m c 4 t) (iblk m c 5 t) := by dsimp only [dats]
theorem after7 (c : Dev nD) (t : Fin cfg0.N) : (dats m 0 c).after 7 t = outC (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## Every step meets its obligation -/

/-- What the walk hands the body at step `t`, buffer by buffer, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it expects back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- At any step the read buffers hold their tiles, so one step of the body applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The whole run -/

set_option backward.isDefEq.respectTransparency.types false in
/-- From any memory with the counters at zero, every weakly fair execution of the program ends, nothing faulting,
    with every staged array rebuilt from what the steps wrote back and every other array as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to its end and its fifteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Cell

end
-- ==== Proof.CellSpec.lean ====
/-
  The recurrent cell, one entry at a time, on the extended reals.

  A batch of 4096 rows is processed: X is the input, H the previous hidden state, C the previous cell state, each
  4096 × 1024. Three gates (input, forget, output) each have a 1024 × 2048 matrix W and a bias b; the first 1024
  columns of W meet the input, the last 1024 the hidden state. At row r and unit q a gate is

      σ( (Σ_k X(r,k) · W(q,k) + b(q)) + Σ_k H(r,k) · W(q,1024+k) ),        σ(z) = 1 / (1 + e^(-z)).

  Three square 1024 × 1024 matrices give a scale  s = Σ_k X(r,k) · Wxs(q,k) + bxs(q)  and a linear candidate
  l = (Σ_k X(r,k) · Wxg(q,k) + (bxg(q) + bhg(q))) + Σ_k H(r,k) · Whg(q,k);  the candidate is tanh(s · l). Then

      C'(r,q) = f · C(r,q) + i · tanh(s · l),        H'(r,q) = o · tanh(C'(r,q)).

  The sums are grouped here the way a computation that multiplies the input and the hidden state by two separate
  weight slabs groups them. A computation that joins X and H into one 4096 × 2048 array and contracts once over all
  2048 columns, or that adds each bias to its own product before adding the two products, gets the same extended
  real: only the order and grouping of additions differ, and addition of extended reals is commutative and
  associative everywhere, infinities included. The two laws below say exactly that; no finiteness is used.
-/
import Idealize.ShloMosaic.Lib.ValueIdx
import Idealize.ShloMosaic.PureOps.Ideal

noncomputable section

open scoped BigOperators

namespace Cert.Cell

open Idealize.ShloMosaic Idealize.ShloMosaic.ValueIdx

/-- A 4096 × 1024 array of extended reals: one row per batch element. -/
abbrev Rows : Type := (⟨2, ![4096, 1024]⟩ : Shape).Idx → EReal
/-- A gate's 1024 × 2048 matrix: unit q's weights for the 1024 inputs, then for the 1024 hidden entries. -/
abbrev GateW : Type := (⟨2, ![1024, 2048]⟩ : Shape).Idx → EReal
/-- A square 1024 × 1024 matrix. -/
abbrev SqW : Type := (⟨2, ![1024, 1024]⟩ : Shape).Idx → EReal
/-- A bias: one entry per unit. -/
abbrev Bias : Type := (⟨1, ![1024]⟩ : Shape).Idx → EReal

/-- Column k of the first half of 2048 columns. -/
abbrev lo (k : Fin 1024) : Fin 2048 := ⟨k.val, by have := k.isLt; omega⟩
/-- Column k of the second half. -/
abbrev hi (k : Fin 1024) : Fin 2048 := ⟨1024 + k.val, by have := k.isLt; omega⟩

/-- Row r of A against the first 1024 columns of row q of W. -/
def dotLo (A : Rows) (W : GateW) (r : Fin 4096) (q : Fin 1024) : EReal :=
  ∑ k : Fin 1024, A (ix2 r k) * W (ix2 q (lo k))
/-- Row r of A against the last 1024 columns of row q of W. -/
def dotHi (A : Rows) (W : GateW) (r : Fin 4096) (q : Fin 1024) : EReal :=
  ∑ k : Fin 1024, A (ix2 r k) * W (ix2 q (hi k))
/-- Row r of A against row q of a square W. -/
def dotSq (A : Rows) (W : SqW) (r : Fin 4096) (q : Fin 1024) : EReal :=
  ∑ k : Fin 1024, A (ix2 r k) * W (ix2 q k)

/-- A gate at row r, unit q. -/
def gate (X H : Rows) (W : GateW) (b : Bias) (r : Fin 4096) (q : Fin 1024) : EReal :=
  Ideal.logistic ((dotLo X W r q + b (ix1 q)) + dotHi H W r q)

/-- The fifteen arrays the cell is given, in the order the programs take them. -/
structure Args where
  X : Rows
  H : Rows
  C : Rows
  Wi : GateW
  bi : Bias
  Wf : GateW
  bf : Bias
  Wo : GateW
  bo : Bias
  Wxs : SqW
  bxs : Bias
  Wxg : SqW
  bxg : Bias
  Whg : SqW
  bhg : Bias

/-- The scale s at row r, unit q. -/
def scale (a : Args) (r : Fin 4096) (q : Fin 1024) : EReal := dotSq a.X a.Wxs r q + a.bxs (ix1 q)
/-- The linear candidate l at row r, unit q. -/
def lin (a : Args) (r : Fin 4096) (q : Fin 1024) : EReal :=
  (dotSq a.X a.Wxg r q + (a.bxg (ix1 q) + a.bhg (ix1 q))) + dotSq a.H a.Whg r q

/-- The new cell state at row r, unit q. -/
def newC (a : Args) (r : Fin 4096) (q : Fin 1024) : EReal :=
  gate a.X a.H a.Wf a.bf r q * a.C (ix2 r q) + gate a.X a.H a.Wi a.bi r q * Ideal.tanh (scale a r q * lin a r q)
/-- The new hidden state at row r, unit q. -/
def newH (a : Args) (r : Fin 4096) (q : Fin 1024) : EReal :=
  gate a.X a.H a.Wo a.bo r q * Ideal.tanh (newC a r q)

/-- The new cell state as an array. -/
def arrC (a : Args) : Rows := fun i => newC a (i 0) (i 1)
/-- The new hidden state as an array. -/
def arrH (a : Args) : Rows := fun i => newH a (i 0) (i 1)

theorem arrC_ix2 (a : Args) (r : Fin 4096) (q : Fin 1024) : arrC a (ix2 r q) = newC a r q := rfl
theorem arrH_ix2 (a : Args) (r : Fin 4096) (q : Fin 1024) : arrH a (ix2 r q) = newH a r q := rfl

/-! ## Regrouping -/

/-- A sum over 2048 columns is the sum over the first 1024 plus the sum over the last 1024. -/
theorem sum_halves {M : Type} [AddCommMonoid M] (f : Fin 2048 → M) :
    ∑ j : Fin 2048, f j = ∑ k : Fin 1024, f (lo k) + ∑ k : Fin 1024, f (hi k) :=
  Fin.sum_univ_add (a := 1024) (b := 1024) f

/-- One contraction over the joined row (its first half row r of X, its second half row r of H) with the bias added
    last, passed through 1 / (1 + e^(-z)), is the gate. -/
theorem gate_of_joined (X H : Rows) (W : GateW) (b : Bias) (r : Fin 4096) (q : Fin 1024) (cat w : Fin 2048 → EReal) (β : EReal)
    (hlo : ∀ k, cat (lo k) = X (ix2 r k)) (hhi : ∀ k, cat (hi k) = H (ix2 r k))
    (hw : ∀ j, w j = W (ix2 q j)) (hβ : β = b (ix1 q)) :
    Ideal.div 1 (1 + Ideal.exp (-((∑ j : Fin 2048, cat j * w j) + β))) = gate X H W b r q := by
  unfold gate dotLo dotHi Ideal.logistic
  rw [sum_halves]
  simp only [hlo, hhi, hw, hβ]
  rw [add_right_comm]

/-- Each bias added to its own product, then the two sums added, is the first product plus both biases plus the
    second product. -/
theorem lin_of_two (a : Args) (r : Fin 4096) (q : Fin 1024) (px ph : EReal)
    (hx : px = dotSq a.X a.Wxg r q) (hh : ph = dotSq a.H a.Whg r q) :
    (px + a.bxg (ix1 q)) + (ph + a.bhg (ix1 q)) = lin a r q := by
  unfold lin
  rw [hx, hh, add_add_add_comm, add_right_comm (dotSq a.X a.Wxg r q) (a.bxg (ix1 q) + a.bhg (ix1 q))]

end Cert.Cell

end
-- ==== Proof.LibPieces.lean ====
/-
  One piece of a concatenation, read at an index the caller names.

  Arrays laid end to end along an axis: the entry whose coordinate on that axis is  pre + q,  where pre is the total
  extent of the pieces before piece k and q a coordinate inside piece k, is piece k's entry at q, the other
  coordinates unchanged. Three shapes of this are written out: matrices side by side (joined along the columns),
  matrices stacked (joined along the rows), and vectors end to end. The caller supplies the target coordinate c
  together with the equation  c = pre + q,  so no subtraction appears in the statement.
-/
import Idealize.ShloMosaic.Lib.ValueIdx
import Idealize.ShloMosaic.Lib.Pipeline.Value

namespace Cert.Lib.Pieces

open Idealize.ShloMosaic Idealize.ShloMosaic.ValueIdx

variable {α : Type}

/-- Matrices with B rows side by side: column pre + q of the whole is column q of piece k. -/
theorem cols_piece {B W w : ℕ} (xs : List ((s : Shape) × (s.Idx → α)))
    (h : Shape.Concatenates (xs.map (·.1)) ⟨2, ![B, W]⟩ 1)
    (k : ℕ) (hk : k < xs.length) (x : (⟨2, ![B, w]⟩ : Shape).Idx → α)
    (hxk : xs[k] = ⟨⟨2, ![B, w]⟩, x⟩) (pre : ℕ)
    (hpre : (((xs.take k).map (·.1)).map fun s => if h : s.rank = (⟨2, ![B, W]⟩ : Shape).rank
      then s.size ((1 : Fin (⟨2, ![B, W]⟩ : Shape).rank).cast h.symm) else 0).sum = pre)
    (p : Fin B) (q : Fin w) (c : Fin W) (hc : c.val = pre + q.val) :
    concatenate ⟨2, ![B, W]⟩ 1 xs h (ix2 p c) = x (ix2 p q) :=
  concatenate_apply_piece 1 xs h _ k hk _ x hxk rfl pre hpre (ix2 p q) (fun b hb => by
    match b with
    | ⟨0, _⟩ => rfl
    | ⟨1, _⟩ => exact absurd rfl hb) (by show pre + q.val = c.val; omega)

/-- Matrices with W columns stacked: row pre + p of the whole is row p of piece k. -/
theorem rows_piece {B W n : ℕ} (xs : List ((s : Shape) × (s.Idx → α)))
    (h : Shape.Concatenates (xs.map (·.1)) ⟨2, ![B, W]⟩ 0)
    (k : ℕ) (hk : k < xs.length) (x : (⟨2, ![n, W]⟩ : Shape).Idx → α)
    (hxk : xs[k] = ⟨⟨2, ![n, W]⟩, x⟩) (pre : ℕ)
    (hpre : (((xs.take k).map (·.1)).map fun s => if h : s.rank = (⟨2, ![B, W]⟩ : Shape).rank
      then s.size ((0 : Fin (⟨2, ![B, W]⟩ : Shape).rank).cast h.symm) else 0).sum = pre)
    (p : Fin n) (q : Fin W) (c : Fin B) (hc : c.val = pre + p.val) :
    concatenate ⟨2, ![B, W]⟩ 0 xs h (ix2 c q) = x (ix2 p q) :=
  concatenate_apply_piece 0 xs h _ k hk _ x hxk rfl pre hpre (ix2 p q) (fun b hb => by
    match b with
    | ⟨0, _⟩ => exact absurd rfl hb
    | ⟨1, _⟩ => rfl) (by show pre + p.val = c.val; omega)

/-- Vectors end to end: entry pre + q of the whole is entry q of piece k. -/
theorem vec_piece {N n : ℕ} (xs : List ((s : Shape) × (s.Idx → α)))
    (h : Shape.Concatenates (xs.map (·.1)) ⟨1, ![N]⟩ 0)
    (k : ℕ) (hk : k < xs.length) (x : (⟨1, ![n]⟩ : Shape).Idx → α)
    (hxk : xs[k] = ⟨⟨1, ![n]⟩, x⟩) (pre : ℕ)
    (hpre : (((xs.take k).map (·.1)).map fun s => if h : s.rank = (⟨1, ![N]⟩ : Shape).rank
      then s.size ((0 : Fin (⟨1, ![N]⟩ : Shape).rank).cast h.symm) else 0).sum = pre)
    (q : Fin n) (c : Fin N) (hc : c.val = pre + q.val) :
    concatenate ⟨1, ![N]⟩ 0 xs h (ix1 c) = x (ix1 q) :=
  concatenate_apply_piece 0 xs h _ k hk _ x hxk rfl pre hpre (ix1 q) (fun b hb => by
    match b with
    | ⟨0, _⟩ => exact absurd rfl hb) (by show pre + q.val = c.val; omega)

end Cert.Lib.Pieces
-- ==== Proof.LibNaryFive.lean ====
/-
  A host operation with five operands, read at its own result.

  The result of an operation with a literal family of five operand references is its function applied to the five
  operands' contents, each AT ITS OWN REFERENCE — so that what the earlier operations of the line wrote into those
  operands can go on being read off one reference at a time. (With the operands left as a function of the position
  the references are no longer literal and nothing further can be read.) A concatenation of five arrays is such an
  operation. The tactic below reads a whole line of host operations this way.
-/
import Idealize.ShloMosaic.Lib.StableHlo.Run

namespace Cert.Lib.NaryFive

open Idealize.ShloMosaic Idealize.ShloMosaic.StableHlo

variable {τ : Topo} {sig : RefSig} {Val : EltTy → Type} {x a b c e y : Ref sig .tc}

/-- The result of a five-operand operation at its own result reference: its function of the five operands' contents. -/
theorem nary5_result
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) := by
  rw [nary_result]; congr 1; funext k; fin_cases k <;> rfl

/-- The same with the result reference left out of the index, as one pass of rewriting needs it. -/
theorem nary5_result'
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) :=
  nary5_result f hxs hy F

/-- Read a buffer's contents after a line of host operations, in one pass: each operation's own result is its
    function of its operands, any other reference keeps what it had (the two references told apart by deciding). -/
macro "host_line_results" : tactic =>
  `(tactic| (simp (disch := decide) only [Idealize.ShloMosaic.StableHlo.after_cons, Idealize.ShloMosaic.StableHlo.after_nil,
      Idealize.ShloMosaic.StableHlo.unary_result', Idealize.ShloMosaic.StableHlo.binary_result',
      Idealize.ShloMosaic.StableHlo.reshape_result', Cert.Lib.NaryFive.nary5_result',
      Idealize.ShloMosaic.StableHlo.nary4_result',
      Idealize.ShloMosaic.StableHlo.unary_result_ne', Idealize.ShloMosaic.StableHlo.binary_result_ne',
      Idealize.ShloMosaic.StableHlo.reshape_result_ne', Idealize.ShloMosaic.StableHlo.nary_result_ne']))

end Cert.Lib.NaryFive
-- ==== Proof.CellHost.lean ====
/-
  What the launch finds in the three arrays the host builds for it.

  The input-side slab (1024 × 5120) has, in columns 0–1023, 1024–2047 and 2048–3071, the first 1024 columns of the
  three gate matrices, transposed: its entry (k, off + q) is the gate matrix's entry (q, k). Columns 3072–4095 hold
  the candidate's input matrix transposed and columns 4096–5119 the scale matrix transposed. The state-side slab
  (1024 × 4096) has the LAST 1024 columns of the three gate matrices transposed — entry (k, off + q) is the gate
  matrix's entry (q, 1024 + k) — and then the candidate's state matrix transposed. The bias row (1 × 5120) is the
  three gate biases, the sum of the candidate's two biases, and the scale's bias, end to end. Narrowing the slabs'
  format changes no entry at the ideal values.

  Each array is first named as one term of the argument arrays (the host's operations composed), then read at an
  index piece by piece. The host's line is read in two passes: one over the operations after the concatenation, one
  over the transposes and slices that feed it.
-/
import proofs.«180327_j54150947668389_2_alg».proof.Proof.CellFrameIdeal
import proofs.«180327_j54150947668389_2_alg».proof.Proof.CellSpec
import proofs.«180327_j54150947668389_2_alg».proof.Proof.LibPieces
import proofs.«180327_j54150947668389_2_alg».proof.Proof.LibNaryFive
import Idealize.ShloMosaic.Lib.ValueLayout
import Idealize.ShloMosaic.Lib.StableHlo.Run

noncomputable section

namespace Cert.KernelIdeal.CellHost

open Cert.KernelIdeal Cert.KernelIdeal.Gen Idealize.ShloMosaic Idealize.ShloMosaic.TcCoe Idealize.SL.Sem
open Idealize.ShloMosaic.ValueIdx Cert.Cell Cert.Lib.Pieces

/-! ## The pieces -/

/-- A square matrix transposed. -/
def tr (a : FVec Ideal S1024x1024 .f32) : FVec Ideal S1024x1024 .f32 :=
  transpose S1024x1024 [1, 0] a transposes_S1024x1024_S1024x1024_1_0
/-- The first 1024 columns of a gate matrix. -/
def loHalf (a : FVec Ideal S1024x2048 .f32) : FVec Ideal S1024x1024 .f32 :=
  extractStridedSlice S1024x1024 ![0, 0] a slices_S1024x2048_S1024x1024_0_0
/-- The last 1024 columns of a gate matrix. -/
def hiHalf (a : FVec Ideal S1024x2048 .f32) : FVec Ideal S1024x1024 .f32 :=
  extractStridedSlice S1024x1024 ![0, 1024] a slices_S1024x2048_S1024x1024_0_1024

theorem tr_apply (a : FVec Ideal S1024x1024 .f32) (k q : Fin 1024) : tr a (ix2 k q) = a (ix2 q k) :=
  transpose_ix2_apply a _ k q
theorem loHalf_apply (a : FVec Ideal S1024x2048 .f32) (q k : Fin 1024) : loHalf a (ix2 q k) = a (ix2 q (lo k)) :=
  slice2_axis1_apply 0 a _ q k (lo k) (by simp)
theorem hiHalf_apply (a : FVec Ideal S1024x2048 .f32) (q k : Fin 1024) : hiHalf a (ix2 q k) = a (ix2 q (hi k)) :=
  slice2_axis1_apply 1024 a _ q k (hi k) rfl

/-! ## The three arrays as terms -/

/-- The input-side slab. -/
def slabX (a3 a5 a7 : FVec Ideal S1024x2048 .f32) (a9 a11 : FVec Ideal S1024x1024 .f32) : FVec Ideal S1024x5120 .bf16 :=
  truncf .bf16 (concatenate S1024x5120 1
    [⟨S1024x1024, tr (loHalf a3)⟩, ⟨S1024x1024, tr (loHalf a5)⟩, ⟨S1024x1024, tr (loHalf a7)⟩, ⟨S1024x1024, tr a11⟩, ⟨S1024x1024, tr a9⟩]
    concatenates_S1024x1024_S1024x1024_S1024x1024_S1024x1024_S1024x1024_S1024x5120_d1) bitsLt_bf16_f32

/-- The state-side slab. -/
def slabH (a3 a5 a7 : FVec Ideal S1024x2048 .f32) (a13 : FVec Ideal S1024x1024 .f32) : FVec Ideal S1024x4096 .bf16 :=
  truncf .bf16 (concatenate S1024x4096 1
    [⟨S1024x1024, tr (hiHalf a3)⟩, ⟨S1024x1024, tr (hiHalf a5)⟩, ⟨S1024x1024, tr (hiHalf a7)⟩, ⟨S1024x1024, tr a13⟩]
    concatenates_S1024x1024_S1024x1024_S1024x1024_S1024x1024_S1024x4096_d1) bitsLt_bf16_f32

/-- The five biases end to end. -/
def biasVec (a4 a6 a8 a10 a12 a14 : FVec Ideal S1024 .f32) : FVec Ideal S5120 .f32 :=
  concatenate S5120 0 [⟨S1024, a4⟩, ⟨S1024, a6⟩, ⟨S1024, a8⟩, ⟨S1024, addf a12 a14⟩, ⟨S1024, a10⟩]
    concatenates_S1024_S1024_S1024_S1024_S1024_S5120_d0

/-! ## The slabs and the bias vector at an index -/

section entries
variable (a3 a5 a7 : FVec Ideal S1024x2048 .f32) (a9 a11 a13 : FVec Ideal S1024x1024 .f32)
  (a4 a6 a8 a10 a12 a14 : FVec Ideal S1024 .f32) (k q : Fin 1024)

theorem slabX_i (c : Fin 5120) (hc : c.val = q.val) : slabX a3 a5 a7 a9 a11 (ix2 k c) = a3 (ix2 q (lo k)) := by
  unfold slabX
  rw [truncf_apply, cols_piece _ _ 0 (by simp) (tr (loHalf a3)) rfl 0 rfl k q c (by omega), tr_apply, loHalf_apply]
theorem slabX_f (c : Fin 5120) (hc : c.val = 1024 + q.val) : slabX a3 a5 a7 a9 a11 (ix2 k c) = a5 (ix2 q (lo k)) := by
  unfold slabX
  rw [truncf_apply, cols_piece _ _ 1 (by simp) (tr (loHalf a5)) rfl 1024 rfl k q c hc, tr_apply, loHalf_apply]
theorem slabX_o (c : Fin 5120) (hc : c.val = 2048 + q.val) : slabX a3 a5 a7 a9 a11 (ix2 k c) = a7 (ix2 q (lo k)) := by
  unfold slabX
  rw [truncf_apply, cols_piece _ _ 2 (by simp) (tr (loHalf a7)) rfl 2048 rfl k q c hc, tr_apply, loHalf_apply]
theorem slabX_g (c : Fin 5120) (hc : c.val = 3072 + q.val) : slabX a3 a5 a7 a9 a11 (ix2 k c) = a11 (ix2 q k) := by
  unfold slabX
  rw [truncf_apply, cols_piece _ _ 3 (by simp) (tr a11) rfl 3072 rfl k q c hc, tr_apply]
theorem slabX_s (c : Fin 5120) (hc : c.val = 4096 + q.val) : slabX a3 a5 a7 a9 a11 (ix2 k c) = a9 (ix2 q k) := by
  unfold slabX
  rw [truncf_apply, cols_piece _ _ 4 (by simp) (tr a9) rfl 4096 rfl k q c hc, tr_apply]

theorem slabH_i (c : Fin 4096) (hc : c.val = q.val) : slabH a3 a5 a7 a13 (ix2 k c) = a3 (ix2 q (hi k)) := by
  unfold slabH
  rw [truncf_apply, cols_piece _ _ 0 (by simp) (tr (hiHalf a3)) rfl 0 rfl k q c (by omega), tr_apply, hiHalf_apply]
theorem slabH_f (c : Fin 4096) (hc : c.val = 1024 + q.val) : slabH a3 a5 a7 a13 (ix2 k c) = a5 (ix2 q (hi k)) := by
  unfold slabH
  rw [truncf_apply, cols_piece _ _ 1 (by simp) (tr (hiHalf a5)) rfl 1024 rfl k q c hc, tr_apply, hiHalf_apply]
theorem slabH_o (c : Fin 4096) (hc : c.val = 2048 + q.val) : slabH a3 a5 a7 a13 (ix2 k c) = a7 (ix2 q (hi k)) := by
  unfold slabH
  rw [truncf_apply, cols_piece _ _ 2 (by simp) (tr (hiHalf a7)) rfl 2048 rfl k q c hc, tr_apply, hiHalf_apply]
theorem slabH_g (c : Fin 4096) (hc : c.val = 3072 + q.val) : slabH a3 a5 a7 a13 (ix2 k c) = a13 (ix2 q k) := by
  unfold slabH
  rw [truncf_apply, cols_piece _ _ 3 (by simp) (tr a13) rfl 3072 rfl k q c hc, tr_apply]

theorem biasVec_i (c : Fin 5120) (hc : c.val = q.val) : biasVec a4 a6 a8 a10 a12 a14 (ix1 c) = a4 (ix1 q) := by
  unfold biasVec
  exact vec_piece _ _ 0 (by simp) a4 rfl 0 rfl q c (by omega)
theorem biasVec_f (c : Fin 5120) (hc : c.val = 1024 + q.val) : biasVec a4 a6 a8 a10 a12 a14 (ix1 c) = a6 (ix1 q) := by
  unfold biasVec
  exact vec_piece _ _ 1 (by simp) a6 rfl 1024 rfl q c hc
theorem biasVec_o (c : Fin 5120) (hc : c.val = 2048 + q.val) : biasVec a4 a6 a8 a10 a12 a14 (ix1 c) = a8 (ix1 q) := by
  unfold biasVec
  exact vec_piece _ _ 2 (by simp) a8 rfl 2048 rfl q c hc
theorem biasVec_g (c : Fin 5120) (hc : c.val = 3072 + q.val) :
    biasVec a4 a6 a8 a10 a12 a14 (ix1 c) = a12 (ix1 q) + a14 (ix1 q) := by
  unfold biasVec
  exact vec_piece _ _ 3 (by simp) (addf a12 a14) rfl 3072 rfl q c hc
theorem biasVec_s (c : Fin 5120) (hc : c.val = 4096 + q.val) : biasVec a4 a6 a8 a10 a12 a14 (ix1 c) = a10 (ix1 q) := by
  unfold biasVec
  exact vec_piece _ _ 4 (by simp) a10 rfl 4096 rfl q c hc

end entries

/-! ## What the launch finds -/

variable (m : (ℓ : Loc nD τ sig) → Buf (Elt Ideal) ℓ)

set_option maxHeartbeats 4000000 in
/-- The input-side slab the launch finds is the slab of the argument arrays. -/
theorem found_slabX (c : Dev nD) :
    (Cell.V m c main_v12 : S1024x5120.Idx → EReal)
      = slabX (m ((c : Thread nD τ).loc main_arg3)) (m ((c : Thread nD τ).loc main_arg5)) (m ((c : Thread nD τ).loc main_arg7)) (m ((c : Thread nD τ).loc main_arg9)) (m ((c : Thread nD τ).loc main_arg11)) := by
  dsimp only [Cell.V]
  simp only [hostOps0, List.flatten_cons, List.flatten_nil, List.append_nil]
  host_line_results
  repeat (first
    | rw [StableHlo.unary_result] | rw [StableHlo.binary_result]
    | (rw [StableHlo.unary_result_ne]; rotate_left; decide)
    | (rw [StableHlo.binary_result_ne]; rotate_left; decide)
    | (rw [StableHlo.nary_result_ne]; rotate_left; decide)
    | (rw [StableHlo.reshape_result_ne]; rotate_left; decide))
  rfl

set_option maxHeartbeats 4000000 in
/-- The state-side slab the launch finds is the slab of the argument arrays. -/
theorem found_slabH (c : Dev nD) :
    (Cell.V m c main_v18 : S1024x4096.Idx → EReal)
      = slabH (m ((c : Thread nD τ).loc main_arg3)) (m ((c : Thread nD τ).loc main_arg5)) (m ((c : Thread nD τ).loc main_arg7)) (m ((c : Thread nD τ).loc main_arg13)) := by
  dsimp only [Cell.V]
  simp only [hostOps0, List.flatten_cons, List.flatten_nil, List.append_nil]
  host_line_results
  repeat (first
    | rw [StableHlo.unary_result] | rw [StableHlo.binary_result]
    | (rw [StableHlo.unary_result_ne]; rotate_left; decide)
    | (rw [StableHlo.binary_result_ne]; rotate_left; decide)
    | (rw [StableHlo.nary_result_ne]; rotate_left; decide)
    | (rw [StableHlo.reshape_result_ne]; rotate_left; decide))
  rfl

set_option maxHeartbeats 4000000 in
/-- The bias row the launch finds, at (0, j), is the bias vector's entry j. -/
theorem found_biasRow (c : Dev nD) (j : Fin 5120) :
    (Cell.V m c main_v21 : S1x5120.Idx → EReal) (ix2 (0 : Fin 1) j)
      = biasVec (m ((c : Thread nD τ).loc main_arg4)) (m ((c : Thread nD τ).loc main_arg6)) (m ((c : Thread nD τ).loc main_arg8)) (m ((c : Thread nD τ).loc main_arg10)) (m ((c : Thread nD τ).loc main_arg12)) (m ((c : Thread nD τ).loc main_arg14)) (ix1 j) := by
  dsimp only [Cell.V]
  simp only [hostOps0, List.flatten_cons, List.flatten_nil, List.append_nil]
  host_line_results
  repeat (first
    | rw [StableHlo.unary_result] | rw [StableHlo.binary_result]
    | (rw [StableHlo.unary_result_ne]; rotate_left; decide)
    | (rw [StableHlo.binary_result_ne]; rotate_left; decide)
    | (rw [StableHlo.nary_result_ne]; rotate_left; decide)
    | (rw [StableHlo.reshape_result_ne]; rotate_left; decide))
  exact shapeCast_a_1a_apply _ _ 0 j

end Cert.KernelIdeal.CellHost

end
-- ==== Proof.LibMatmulNN.lean ====
/-
  A plain matrix product read at an index, at the ideal values.

  For an M×K matrix A and a K×N matrix B, the product that contracts axis 1 of A with axis 0 of B (dimension numbers
  [1], [0], [0], [1], no batch axis: A · B) has at (a, b) the entry

      acc (a, b) + ∑ c < K, A (a, c) · B (c, b)

  on the extended reals, and just the sum when the accumulator is the zero splat. The index of the contraction is
  the one coordinate c; the operand indices at output (a, b) and contraction position c are (a, c) and (c, b).
-/
import Idealize.ShloMosaic.Lib.ValueIdx
import Idealize.ShloMosaic.PureOps.Ideal.Laws

noncomputable section

open scoped BigOperators

namespace Idealize.ShloMosaic.MatmulNN

open Idealize.ShloMosaic Idealize.ShloMosaic.ValueIdx

variable {M K N : Nat}

/-- The left operand's index at output (a, b) and contraction position c is (a, c). -/
theorem lhsIdx_plain (a : Fin M) (b : Fin N) (c : Fin K) :
    (DotDims.plain M K N).lhsIdx (ix2 a b) ((contrEquiv1 (DotDims.plain M K N) K rfl rfl).symm c) = ix2 a c := by
  have c2 := contrEquiv1_symm_val (DotDims.plain M K N) K rfl rfl c
  funext ax; apply Fin.ext
  match ax with
  | ⟨0, _⟩ => simp [DotDims.lhsIdx, DotDims.plain]; rfl
  | ⟨1, _⟩ => simp [DotDims.lhsIdx, DotDims.plain]; exact c2

/-- The right operand's index at output (a, b) and contraction position c is (c, b). -/
theorem rhsIdx_plain (a : Fin M) (b : Fin N) (c : Fin K) :
    (DotDims.plain M K N).rhsIdx (ix2 a b) ((contrEquiv1 (DotDims.plain M K N) K rfl rfl).symm c) = ix2 c b := by
  have c2 := contrEquiv1_symm_val (DotDims.plain M K N) K rfl rfl c
  funext ax; apply Fin.ext
  match ax with
  | ⟨0, _⟩ => simp [DotDims.rhsIdx, DotDims.plain]; exact c2
  | ⟨1, _⟩ => simp [DotDims.rhsIdx, DotDims.plain]; rfl

/-- A · B accumulated onto `acc`, at (a, b): the accumulator's entry plus the sum over the contracted coordinate. -/
theorem matmul_apply {φ₁ φ₂ : FTy} (prec : Option ContractPrecision)
    (A : FVec Ideal ⟨2, ![M, K]⟩ φ₁) (B : FVec Ideal ⟨2, ![K, N]⟩ φ₂) (acc : FVec Ideal ⟨2, ![M, N]⟩ .f32) (a : Fin M) (b : Fin N) :
    FloatOps.matmul (DotDims.plain M K N) prec A B acc (ix2 a b)
      = acc (ix2 a b) + ∑ c : Fin K, A (ix2 a c) * B (ix2 c b) := by
  rw [Ideal.matmul_apply, ← Equiv.sum_comp (contrEquiv1 (DotDims.plain M K N) K rfl rfl).symm]
  refine congrArg (acc (ix2 a b) + ·) (Finset.sum_congr rfl fun c _ => ?_)
  rw [lhsIdx_plain, rhsIdx_plain]

/-- A · B into the zero splat, at (a, b): the sum over the contracted coordinate. -/
theorem matmul_zero_apply {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  rw [lhsIdx_plain, rhsIdx_plain]

end Idealize.ShloMosaic.MatmulNN

end
-- ==== Proof.CellTile.lean ====
/-
  One step of the body, read entry by entry at the ideal values.

  The body works on a tile of 128 rows. From the tile x0 of the input, the input-side slab x3 and the bias row x4 it
  forms  A(p, j) = Σ_k x0(p,k) · x3(k,j) + x4(0,j)  for the 5120 columns j; from the tile x1 of the hidden state and
  the state-side slab x5 it forms  B(p, j) = A(p, j) + Σ_k x1(p,k) · x5(k,j)  for the first 4096 columns. The first
  3072 columns of B pass through the logistic function: they are the three gates. Column 3072 + q of B is the linear
  candidate and column 4096 + q of A the scale. With x2 the tile of the previous cell state,

      cell(p, q)   = gate(p, 1024 + q) · x2(p, q) + gate(p, q) · tanh(A(p, 4096 + q) · B(p, 3072 + q)),
      hidden(p, q) = gate(p, 2048 + q) · tanh(cell(p, q)).

  Narrowing a float format and re-laying an array in its own shape change no entry. When row p of the three row
  tiles is row r of the whole arrays, and the slabs and the bias row hold what the host builds from the fifteen
  arguments, these are the cell's new cell state and new hidden state at (r, q).
-/
import proofs.«180327_j54150947668389_2_alg».proof.Proof.Gen.KernelIdeal.Skeleton
import proofs.«180327_j54150947668389_2_alg».proof.Proof.CellSpec
import proofs.«180327_j54150947668389_2_alg».proof.Proof.LibMatmulNN
import Idealize.ShloMosaic.Lib.ValueLayout
import Idealize.ShloMosaic.Lib.Pipeline.Value

noncomputable section

open scoped BigOperators

namespace Cert.KernelIdeal.CellTile

open Cert.KernelIdeal Cert.KernelIdeal.Gen Idealize.ShloMosaic Idealize.ShloMosaic.ValueIdx Cert.Cell

variable (x0 x1 x2 : FVec Ideal S128x1024 .f32) (x3 : FVec Ideal S1024x5120 .bf16) (x4 : FVec Ideal S1x5120 .f32)
  (x5 : FVec Ideal S1024x4096 .bf16)

/-- Column j of 4096 as a column of 5120. -/
abbrev wide (j : Fin 4096) : Fin 5120 := ⟨j.val, by have := j.isLt; omega⟩
/-- Column j of 3072 as a column of 4096. -/
abbrev mid (j : Fin 3072) : Fin 4096 := ⟨j.val, by have := j.isLt; omega⟩
/-- Column off + q, for a unit q and an offset that keeps it below n. -/
abbrev col (n off : Nat) (q : Fin 1024) (h : off + 1024 ≤ n) : Fin n := ⟨off + q.val, by have := q.isLt; omega⟩

/-! ## The five stages -/

/-- The input product plus the bias row. -/
theorem pay1_apply (p : Fin 128) (j : Fin 5120) :
    k0_pay1 (F := Ideal) x0 x3 x4 (ix2 p j) = (∑ k : Fin 1024, x0 (ix2 p k) * x3 (ix2 k j)) + x4 (ix2 (0 : Fin 1) j) := by
  unfold k0_pay1
  refine (addf_apply _ _ _).trans ?_
  refine congrArg₂ (· + ·) ?_ ?_
  · refine (MatmulNN.matmul_zero_apply (M := 128) (K := 1024) (N := 5120) none _ _ p j).trans ?_
    refine Finset.sum_congr rfl fun k _ => ?_
    rw [shapeCast_self]
    rfl
  · refine (broadcastTo_1b_ab_apply _ _ p j).trans ?_
    rw [shapeCast_self]

/-- The state product added onto the first 4096 columns. -/
theorem pay2_apply (p : Fin 128) (j : Fin 4096) :
    k0_pay2 (F := Ideal) x0 x1 x3 x4 x5 (ix2 p j)
      = k0_pay1 (F := Ideal) x0 x3 x4 (ix2 p (wide j)) + ∑ k : Fin 1024, x1 (ix2 p k) * x5 (ix2 k j) := by
  unfold k0_pay2
  refine (addf_apply _ _ _).trans ?_
  refine congrArg₂ (· + ·) ?_ ?_
  · exact slice2_axis1_apply 0 _ _ p j (wide j) (by simp)
  · refine (MatmulNN.matmul_zero_apply (M := 128) (K := 1024) (N := 4096) none _ _ p j).trans ?_
    refine Finset.sum_congr rfl fun k _ => ?_
    rw [shapeCast_self]
    rfl

/-- The three gates: the logistic function of the first 3072 columns. -/
theorem pay3_apply (p : Fin 128) (j : Fin 3072) :
    k0_pay3 (F := Ideal) x0 x1 x3 x4 x5 (ix2 p j) = Ideal.logistic (k0_pay2 (F := Ideal) x0 x1 x3 x4 x5 (ix2 p (mid j))) := by
  unfold k0_pay3
  exact congrArg Ideal.logistic (slice2_axis1_apply 0 _ _ p j (mid j) (by simp))

/-- The new cell state of the tile. -/
theorem pay4_apply (p : Fin 128) (q : Fin 1024) :
    k0_pay4 (F := Ideal) x0 x1 x2 x3 x4 x5 (ix2 p q)
      = k0_pay3 (F := Ideal) x0 x1 x3 x4 x5 (ix2 p (col 3072 1024 q (by omega))) * x2 (ix2 p q)
        + k0_pay3 (F := Ideal) x0 x1 x3 x4 x5 (ix2 p (col 3072 0 q (by omega)))
          * Ideal.tanh (k0_pay1 (F := Ideal) x0 x3 x4 (ix2 p (col 5120 4096 q (by omega)))
              * k0_pay2 (F := Ideal) x0 x1 x3 x4 x5 (ix2 p (col 4096 3072 q (by omega)))) := by
  unfold k0_pay4
  have s17 := slice2_axis1_apply 4096 (k0_pay1 (F := Ideal) x0 x3 x4) slices_S128x5120_o0_4096_S128x1024 p q (col 5120 4096 q (by omega)) rfl
  have s20 := slice2_axis1_apply 0 (k0_pay3 (F := Ideal) x0 x1 x3 x4 x5) slices_S128x3072_o0_0_S128x1024 p q (col 3072 0 q (by omega)) rfl
  have s21 := slice2_axis1_apply 1024 (k0_pay3 (F := Ideal) x0 x1 x3 x4 x5) slices_S128x3072_o0_1024_S128x1024 p q (col 3072 1024 q (by omega)) rfl
  have s23 := slice2_axis1_apply 3072 (k0_pay2 (F := Ideal) x0 x1 x3 x4 x5) slices_S128x4096_o0_3072_S128x1024 p q (col 4096 3072 q (by omega)) rfl
  show extractStridedSlice S128x1024 ![0, 1024] (k0_pay3 (F := Ideal) x0 x1 x3 x4 x5) slices_S128x3072_o0_1024_S128x1024 (ix2 p q) * x2 (ix2 p q)
      + extractStridedSlice S128x1024 ![0, 0] (k0_pay3 (F := Ideal) x0 x1 x3 x4 x5) slices_S128x3072_o0_0_S128x1024 (ix2 p q)
        * Ideal.tanh (extractStridedSlice S128x1024 ![0, 4096] (k0_pay1 (F := Ideal) x0 x3 x4) slices_S128x5120_o0_4096_S128x1024 (ix2 p q)
            * extractStridedSlice S128x1024 ![0, 3072] (k0_pay2 (F := Ideal) x0 x1 x3 x4 x5) slices_S128x4096_o0_3072_S128x1024 (ix2 p q)) = _
  rw [s17, s20, s21, s23]

/-- The new hidden state of the tile. -/
theorem pay5_apply (p : Fin 128) (q : Fin 1024) :
    k0_pay5 (F := Ideal) x0 x1 x2 x3 x4 x5 (ix2 p q)
      = k0_pay3 (F := Ideal) x0 x1 x3 x4 x5 (ix2 p (col 3072 2048 q (by omega))) * Ideal.tanh (k0_pay4 (F := Ideal) x0 x1 x2 x3 x4 x5 (ix2 p q)) := by
  unfold k0_pay5
  have s22 := slice2_axis1_apply 2048 (k0_pay3 (F := Ideal) x0 x1 x3 x4 x5) slices_S128x3072_o0_2048_S128x1024 p q (col 3072 2048 q (by omega)) rfl
  show extractStridedSlice S128x1024 ![0, 2048] (k0_pay3 (F := Ideal) x0 x1 x3 x4 x5) slices_S128x3072_o0_2048_S128x1024 (ix2 p q)
      * Ideal.tanh (k0_pay4 (F := Ideal) x0 x1 x2 x3 x4 x5 (ix2 p q)) = _
  rw [s22]

/-! ## A tile's entry is the cell's -/

section cell
variable (a : Args) (r : Fin 4096) (p : Fin 128) (q : Fin 1024)
  (h0 : ∀ k, x0 (ix2 p k) = a.X (ix2 r k)) (h1 : ∀ k, x1 (ix2 p k) = a.H (ix2 r k))
include h0 h1

/-- A gate column of the tile: when column off + q of the two slabs holds row q of W (its first half in the
    input-side slab, its second half in the state-side slab) and the bias row holds b(q) there, column off + q of the
    gates is the gate of W and b at (r, q). -/
theorem tile_gate (W : GateW) (b : Bias) (c3 : Fin 3072)
    (hX : ∀ k, x3 (ix2 k (wide (mid c3))) = W (ix2 q (lo k))) (hH : ∀ k, x5 (ix2 k (mid c3)) = W (ix2 q (hi k)))
    (hB : x4 (ix2 (0 : Fin 1) (wide (mid c3))) = b (ix1 q)) :
    k0_pay3 (F := Ideal) x0 x1 x3 x4 x5 (ix2 p c3) = gate a.X a.H W b r q := by
  rw [pay3_apply, pay2_apply, pay1_apply]
  unfold gate dotLo dotHi
  simp only [h0, h1, hX, hH, hB]

/-- The tile's new cell state at (p, q) is the cell's at (r, q). -/
theorem tile_newC (h2 : x2 (ix2 p q) = a.C (ix2 r q))
    (hXi : ∀ k, x3 (ix2 k (wide (mid (col 3072 0 q (by omega))))) = a.Wi (ix2 q (lo k)))
    (hHi : ∀ k, x5 (ix2 k (mid (col 3072 0 q (by omega)))) = a.Wi (ix2 q (hi k)))
    (hBi : x4 (ix2 (0 : Fin 1) (wide (mid (col 3072 0 q (by omega))))) = a.bi (ix1 q))
    (hXf : ∀ k, x3 (ix2 k (wide (mid (col 3072 1024 q (by omega))))) = a.Wf (ix2 q (lo k)))
    (hHf : ∀ k, x5 (ix2 k (mid (col 3072 1024 q (by omega)))) = a.Wf (ix2 q (hi k)))
    (hBf : x4 (ix2 (0 : Fin 1) (wide (mid (col 3072 1024 q (by omega))))) = a.bf (ix1 q))
    (hXg : ∀ k, x3 (ix2 k (wide (col 4096 3072 q (by omega)))) = a.Wxg (ix2 q k))
    (hHg : ∀ k, x5 (ix2 k (col 4096 3072 q (by omega))) = a.Whg (ix2 q k))
    (hBg : x4 (ix2 (0 : Fin 1) (wide (col 4096 3072 q (by omega)))) = a.bxg (ix1 q) + a.bhg (ix1 q))
    (hXs : ∀ k, x3 (ix2 k (col 5120 4096 q (by omega))) = a.Wxs (ix2 q k))
    (hBs : x4 (ix2 (0 : Fin 1) (col 5120 4096 q (by omega))) = a.bxs (ix1 q)) :
    k0_pay4 (F := Ideal) x0 x1 x2 x3 x4 x5 (ix2 p q) = newC a r q := by
  rw [pay4_apply,
    tile_gate x0 x1 x3 x4 x5 a r p q h0 h1 a.Wf a.bf _ hXf hHf hBf,
    tile_gate x0 x1 x3 x4 x5 a r p q h0 h1 a.Wi a.bi _ hXi hHi hBi,
    pay1_apply, pay2_apply, pay1_apply]
  unfold newC scale lin dotSq
  simp only [h0, h1, h2, hXg, hHg, hBg, hXs, hBs]

/-- The tile's new hidden state at (p, q) is the cell's at (r, q). -/
theorem tile_newH (hC : k0_pay4 (F := Ideal) x0 x1 x2 x3 x4 x5 (ix2 p q) = newC a r q)
    (hXo : ∀ k, x3 (ix2 k (wide (mid (col 3072 2048 q (by omega))))) = a.Wo (ix2 q (lo k)))
    (hHo : ∀ k, x5 (ix2 k (mid (col 3072 2048 q (by omega)))) = a.Wo (ix2 q (hi k)))
    (hBo : x4 (ix2 (0 : Fin 1) (wide (mid (col 3072 2048 q (by omega))))) = a.bo (ix1 q)) :
    k0_pay5 (F := Ideal) x0 x1 x2 x3 x4 x5 (ix2 p q) = newH a r q := by
  rw [pay5_apply, hC, tile_gate x0 x1 x3 x4 x5 a r p q h0 h1 a.Wo a.bo _ hXo hHo hBo]
  rfl

end cell

end Cert.KernelIdeal.CellTile

end
-- ==== Proof.CellValue.lean ====
/-
  The kernel's two result arrays are the cell's.

  Step t of the walk brings in rows 128·t … 128·t + 127 of the input, of the hidden state and of the cell state,
  has the two weight slabs and the bias row whole, and writes back rows 128·t … 128·t + 127 of the two results. So
  row p of every row tile at step t is row 128·t + p of its array, and what the step writes back at (p, q) is — by
  the body's entry-by-entry reading and by what the host built into the slabs and the bias row — the cell's new
  hidden state, or new cell state, at (128·t + p, q): block t of the specification's array. The 32 blocks of 128
  rows cover the 4096 rows, so after the run each result array is the specification's array. With the frame's run
  this is the kernel's run with both results named and the fifteen arguments unchanged.
-/
import proofs.«180327_j54150947668389_2_alg».proof.Proof.CellFrameIdeal
import proofs.«180327_j54150947668389_2_alg».proof.Proof.CellHost
import proofs.«180327_j54150947668389_2_alg».proof.Proof.CellTile
import proofs.«180327_j54150947668389_2_alg».proof.Proof.CellSpec
import Idealize.ShloMosaic.Lib.Pipeline.Value

set_option maxRecDepth 16384

noncomputable section

namespace Cert.KernelIdeal.CellValue

open Cert.KernelIdeal Cert.KernelIdeal.Gen Idealize.ShloMosaic Idealize.ShloMosaic.TcCoe Idealize.SL.Sem
open Idealize.ShloMosaic.ValueIdx Cert.Cell Cert.KernelIdeal.CellHost Cert.KernelIdeal.CellTile
open Idealize.ShloMosaic.Pipeline (Dat)

variable (m : (ℓ : Loc nD τ sig) → Buf (Elt Ideal) ℓ) (ρ : Dev nD → PrngReg)

/-- The fifteen argument arrays of device c, as the cell's. -/
abbrev args (c : Dev nD) : Args := ⟨(m ((c : Thread nD τ).loc main_arg0)), (m ((c : Thread nD τ).loc main_arg1)), (m ((c : Thread nD τ).loc main_arg2)), (m ((c : Thread nD τ).loc main_arg3)), (m ((c : Thread nD τ).loc main_arg4)), (m ((c : Thread nD τ).loc main_arg5)), (m ((c : Thread nD τ).loc main_arg6)), (m ((c : Thread nD τ).loc main_arg7)), (m ((c : Thread nD τ).loc main_arg8)), (m ((c : Thread nD τ).loc main_arg9)), (m ((c : Thread nD τ).loc main_arg10)), (m ((c : Thread nD τ).loc main_arg11)), (m ((c : Thread nD τ).loc main_arg12)), (m ((c : Thread nD τ).loc main_arg13)), (m ((c : Thread nD τ).loc main_arg14))⟩

theorem hz : (![0, 0] : Fin 2 → Nat) = fun _ => 0 := funext fun a => by fin_cases a <;> rfl

/-- Row p of step t's tiles, as a row of the whole arrays. -/
abbrev row (t : Fin cfg0.N) (p : Fin 128) : Fin 4096 :=
  ⟨128 * t.val + p.val, by have h : t.val < 32 := lt_of_lt_of_eq t.isLt N_0; have := p.isLt; omega⟩

/-- Where each window's block sits at step t, decided over the 32 steps: the five row windows at block row t, the
    three whole windows at the origin. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-! ## What the body reads -/

/-- Row p of step t's tile of the input is row 128·t + p of the array. -/
theorem read_rows0 (c : Dev nD) (t : Fin cfg0.N) (p : Fin 128) (k : Fin 1024) :
    Cell.iblk m c 0 t (ix2 p k) = m ((c : Thread nD τ).loc main_arg0) (ix2 (row t p) k) := by
  show Cell.V m c main_arg0 (((cfg0.win 0).blk t).view.emb (ix2 p k)) = _
  rw [Cell.V_main_arg0]
  have e := idx_facts t
  refine congrArg _ (funext fun a => Fin.ext ?_)
  match a with
  | ⟨0, _⟩ => show win0_0.index t (0 : Fin 2) * 128 + 1 * p.val = 128 * t.val + p.val; omega
  | ⟨1, _⟩ => show win0_0.index t (1 : Fin 2) * 1024 + 1 * k.val = k.val; omega

/-- Row p of step t's tile of the hidden state is row 128·t + p of the array. -/
theorem read_rows1 (c : Dev nD) (t : Fin cfg0.N) (p : Fin 128) (k : Fin 1024) :
    Cell.iblk m c 1 t (ix2 p k) = m ((c : Thread nD τ).loc main_arg1) (ix2 (row t p) k) := by
  show Cell.V m c main_arg1 (((cfg0.win 1).blk t).view.emb (ix2 p k)) = _
  rw [Cell.V_main_arg1]
  have e := idx_facts t
  refine congrArg _ (funext fun a => Fin.ext ?_)
  match a with
  | ⟨0, _⟩ => show win0_1.index t (0 : Fin 2) * 128 + 1 * p.val = 128 * t.val + p.val; omega
  | ⟨1, _⟩ => show win0_1.index t (1 : Fin 2) * 1024 + 1 * k.val = k.val; omega

/-- Row p of step t's tile of the cell state is row 128·t + p of the array. -/
theorem read_rows2 (c : Dev nD) (t : Fin cfg0.N) (p : Fin 128) (k : Fin 1024) :
    Cell.iblk m c 2 t (ix2 p k) = m ((c : Thread nD τ).loc main_arg2) (ix2 (row t p) k) := by
  show Cell.V m c main_arg2 (((cfg0.win 2).blk t).view.emb (ix2 p k)) = _
  rw [Cell.V_main_arg2]
  have e := idx_facts t
  refine congrArg _ (funext fun a => Fin.ext ?_)
  match a with
  | ⟨0, _⟩ => show win0_2.index t (0 : Fin 2) * 128 + 1 * p.val = 128 * t.val + p.val; omega
  | ⟨1, _⟩ => show win0_2.index t (1 : Fin 2) * 1024 + 1 * k.val = k.val; omega

/-- Window 3's block is the whole array at every step. -/
theorem read_whole3 (c : Dev nD) (t : Fin cfg0.N) (k : Fin 1024) (j : Fin 5120) :
    Cell.iblk m c 3 t (ix2 k j) = (Cell.V m c main_v12 : S1024x5120.Idx → EReal) (ix2 k j) := by
  show Cell.V m c main_v12 (((cfg0.win 3).blk t).view.emb (ix2 k j)) = _
  have e := idx_facts t
  refine congrArg _ (funext fun a => Fin.ext ?_)
  match a with
  | ⟨0, _⟩ => show win0_3.index t (0 : Fin 2) * 1024 + 1 * k.val = k.val; omega
  | ⟨1, _⟩ => show win0_3.index t (1 : Fin 2) * 5120 + 1 * j.val = j.val; omega

/-- Window 4's block is the whole array at every step. -/
theorem read_whole4 (c : Dev nD) (t : Fin cfg0.N) (k : Fin 1) (j : Fin 5120) :
    Cell.iblk m c 4 t (ix2 k j) = (Cell.V m c main_v21 : S1x5120.Idx → EReal) (ix2 k j) := by
  show Cell.V m c main_v21 (((cfg0.win 4).blk t).view.emb (ix2 k j)) = _
  have e := idx_facts t
  refine congrArg _ (funext fun a => Fin.ext ?_)
  match a with
  | ⟨0, _⟩ => show win0_4.index t (0 : Fin 2) * 1 + 1 * k.val = k.val; omega
  | ⟨1, _⟩ => show win0_4.index t (1 : Fin 2) * 5120 + 1 * j.val = j.val; omega

/-- Window 5's block is the whole array at every step. -/
theorem read_whole5 (c : Dev nD) (t : Fin cfg0.N) (k : Fin 1024) (j : Fin 4096) :
    Cell.iblk m c 5 t (ix2 k j) = (Cell.V m c main_v18 : S1024x4096.Idx → EReal) (ix2 k j) := by
  show Cell.V m c main_v18 (((cfg0.win 5).blk t).view.emb (ix2 k j)) = _
  have e := idx_facts t
  refine congrArg _ (funext fun a => Fin.ext ?_)
  match a with
  | ⟨0, _⟩ => show win0_5.index t (0 : Fin 2) * 1024 + 1 * k.val = k.val; omega
  | ⟨1, _⟩ => show win0_5.index t (1 : Fin 2) * 4096 + 1 * j.val = j.val; omega

theorem emb_out6 (t : Fin cfg0.N) (p : Fin 128) (q : Fin 1024) :
    ((cfg0.win 6).blk t).view.emb (ix2 p q) = ix2 (row t p) q := by
  have e := idx_facts t
  refine funext fun a => Fin.ext ?_
  match a with
  | ⟨0, _⟩ => show win0_6.index t (0 : Fin 2) * 128 + 1 * p.val = 128 * t.val + p.val; omega
  | ⟨1, _⟩ => show win0_6.index t (1 : Fin 2) * 1024 + 1 * q.val = q.val; omega

theorem emb_out7 (t : Fin cfg0.N) (p : Fin 128) (q : Fin 1024) :
    ((cfg0.win 7).blk t).view.emb (ix2 p q) = ix2 (row t p) q := by
  have e := idx_facts t
  refine funext fun a => Fin.ext ?_
  match a with
  | ⟨0, _⟩ => show win0_7.index t (0 : Fin 2) * 128 + 1 * p.val = 128 * t.val + p.val; omega
  | ⟨1, _⟩ => show win0_7.index t (1 : Fin 2) * 1024 + 1 * q.val = q.val; omega

/-! ## One step's two tiles are the cell's -/

/-- The new cell state of step t's tile at (p, q) is the cell's at (128·t + p, q). -/
theorem step_newC (c : Dev nD) (t : Fin cfg0.N) (p : Fin 128) (q : Fin 1024) :
    k0_pay4 (F := Ideal) (Cell.iblk m c 0 t) (Cell.iblk m c 1 t) (Cell.iblk m c 2 t) (Cell.iblk m c 3 t) (Cell.iblk m c 4 t) (Cell.iblk m c 5 t) (ix2 p q)
      = newC (args m c) (row t p) q := by
  refine tile_newC (Cell.iblk m c 0 t) (Cell.iblk m c 1 t) (Cell.iblk m c 2 t) (Cell.iblk m c 3 t) (Cell.iblk m c 4 t) (Cell.iblk m c 5 t)
    (args m c) (row t p) p q (fun k => read_rows0 m c t p k) (fun k => read_rows1 m c t p k) (read_rows2 m c t p q)
    ?_ ?_ ?_ ?_ ?_ ?_ ?_ ?_ ?_ ?_ ?_
  · intro k; rw [read_whole3, found_slabX]; exact slabX_i _ _ _ _ _ k q _ (Nat.zero_add _)
  · intro k; rw [read_whole5, found_slabH]; exact slabH_i _ _ _ _ k q _ (Nat.zero_add _)
  · rw [read_whole4, found_biasRow]; exact biasVec_i _ _ _ _ _ _ q _ (Nat.zero_add _)
  · intro k; rw [read_whole3, found_slabX]; exact slabX_f _ _ _ _ _ k q _ rfl
  · intro k; rw [read_whole5, found_slabH]; exact slabH_f _ _ _ _ k q _ rfl
  · rw [read_whole4, found_biasRow]; exact biasVec_f _ _ _ _ _ _ q _ rfl
  · intro k; rw [read_whole3, found_slabX]; exact slabX_g _ _ _ _ _ k q _ rfl
  · intro k; rw [read_whole5, found_slabH]; exact slabH_g _ _ _ _ k q _ rfl
  · rw [read_whole4, found_biasRow]; exact biasVec_g _ _ _ _ _ _ q _ rfl
  · intro k; rw [read_whole3, found_slabX]; exact slabX_s _ _ _ _ _ k q _ rfl
  · rw [read_whole4, found_biasRow]; exact biasVec_s _ _ _ _ _ _ q _ rfl

/-- The new hidden state of step t's tile at (p, q) is the cell's at (128·t + p, q). -/
theorem step_newH (c : Dev nD) (t : Fin cfg0.N) (p : Fin 128) (q : Fin 1024) :
    k0_pay5 (F := Ideal) (Cell.iblk m c 0 t) (Cell.iblk m c 1 t) (Cell.iblk m c 2 t) (Cell.iblk m c 3 t) (Cell.iblk m c 4 t) (Cell.iblk m c 5 t) (ix2 p q)
      = newH (args m c) (row t p) q := by
  refine tile_newH (Cell.iblk m c 0 t) (Cell.iblk m c 1 t) (Cell.iblk m c 2 t) (Cell.iblk m c 3 t) (Cell.iblk m c 4 t) (Cell.iblk m c 5 t)
    (args m c) (row t p) p q (fun k => read_rows0 m c t p k) (fun k => read_rows1 m c t p k) (step_newC m c t p q) ?_ ?_ ?_
  · intro k; rw [read_whole3, found_slabX]; exact slabX_o _ _ _ _ _ k q _ rfl
  · intro k; rw [read_whole5, found_slabH]; exact slabH_o _ _ _ _ k q _ rfl
  · rw [read_whole4, found_biasRow]; exact biasVec_o _ _ _ _ _ _ q _ rfl

/-! ## From the 32 blocks to the arrays -/

/-- What step t writes back to the new hidden-state array is block t of the specification's array. -/
theorem flushed6_eq (c : Dev nD) (t : Fin cfg0.N) :
    (Cell.dats m 0 c).flushed 6 t = ((cfg0.win 6).blk t).view.read (Elt Ideal) (arrH (args m c)) := by
  show (cfg0.win 6).cut (grid0.coords t) ((Cell.dats m 0 c).after 6 t) = _
  rw [Cell.after6]
  unfold Cell.outH
  rw [View.canon_unit_zero hz]
  simp only [View.ld_unit_zero (S := S128x1024) hz, View.ld_unit_zero (S := S1024x5120) hz,
    View.ld_unit_zero (S := S1x5120) hz, View.ld_unit_zero (S := S1024x4096) hz]
  funext j
  obtain ⟨p, q, rfl⟩ : ∃ (p : Fin 128) (q : Fin 1024), j = ix2 p q := ⟨j 0, j 1, eq_ix2 j⟩
  show k0_pay5 (F := Ideal) (Cell.iblk m c 0 t) (Cell.iblk m c 1 t) (Cell.iblk m c 2 t) (Cell.iblk m c 3 t) (Cell.iblk m c 4 t) (Cell.iblk m c 5 t) (ix2 p q)
    = arrH (args m c) (((cfg0.win 6).blk t).view.emb (ix2 p q))
  rw [emb_out6 t p q, arrH_ix2]
  exact step_newH m c t p q

/-- An index of the new hidden-state array is in step t's block iff each coordinate is in the block's range. -/
theorem mem_blk6 (t : Fin cfg0.N) (i : S4096x1024.Idx) :
    i ∈ ((cfg0.win 6).blk t).view.set ↔ ∀ a : Fin 2, win0_6.index t a * S128x1024.size a ≤ (i a).val ∧ (i a).val < win0_6.index t a * S128x1024.size a + S128x1024.size a := by
  show i ∈ ((View.whole main_v22_0).slice (win0_6.rect t)).set ↔ _
  rw [View.set_slice_whole, Rect.mem_set_unit]
  exact Iff.rfl

/-- Every index of the new hidden-state array is written back by the step that owns its row. -/
theorem cover6 (i : S4096x1024.Idx) :
    ∃ t : Fin cfg0.N, (cfg0.win 6).flush t = true ∧ i ∈ ((cfg0.win 6).blk t).view.set := by
  have hi0 : (i 0).val < 4096 := (i 0).isLt
  have hi1 : (i 1).val < 1024 := (i 1).isLt
  let t : Fin cfg0.N := ⟨(i 0).val / 128, lt_of_lt_of_eq (by omega : (i 0).val / 128 < 32) N_0.symm⟩
  have ht : t.val = (i 0).val / 128 := rfl
  have e := idx_facts t
  refine ⟨t, flush0_6 t, ?_⟩
  rw [mem_blk6]
  intro a
  match a with
  | ⟨0, _⟩ => show win0_6.index t (0 : Fin 2) * 128 ≤ (i 0).val ∧ (i 0).val < win0_6.index t (0 : Fin 2) * 128 + 128; omega
  | ⟨1, _⟩ => show win0_6.index t (1 : Fin 2) * 1024 ≤ (i 1).val ∧ (i 1).val < win0_6.index t (1 : Fin 2) * 1024 + 1024; omega

/-- After the run the new hidden-state array is the specification's. -/
theorem final6 (c : Dev nD) : (Cell.dats m 0 c).arrAt 6 cfg0.N = arrH (args m c) :=
  (Cell.dats m 0 c).arrAt_eq_of_cover 6 (arrH (args m c)) (fun t _ => flushed6_eq m c t) cover6

/-- What step t writes back to the new cell-state array is block t of the specification's array. -/
theorem flushed7_eq (c : Dev nD) (t : Fin cfg0.N) :
    (Cell.dats m 0 c).flushed 7 t = ((cfg0.win 7).blk t).view.read (Elt Ideal) (arrC (args m c)) := by
  show (cfg0.win 7).cut (grid0.coords t) ((Cell.dats m 0 c).after 7 t) = _
  rw [Cell.after7]
  unfold Cell.outC
  rw [View.canon_unit_zero hz]
  simp only [View.ld_unit_zero (S := S128x1024) hz, View.ld_unit_zero (S := S1024x5120) hz,
    View.ld_unit_zero (S := S1x5120) hz, View.ld_unit_zero (S := S1024x4096) hz]
  funext j
  obtain ⟨p, q, rfl⟩ : ∃ (p : Fin 128) (q : Fin 1024), j = ix2 p q := ⟨j 0, j 1, eq_ix2 j⟩
  show k0_pay4 (F := Ideal) (Cell.iblk m c 0 t) (Cell.iblk m c 1 t) (Cell.iblk m c 2 t) (Cell.iblk m c 3 t) (Cell.iblk m c 4 t) (Cell.iblk m c 5 t) (ix2 p q)
    = arrC (args m c) (((cfg0.win 7).blk t).view.emb (ix2 p q))
  rw [emb_out7 t p q, arrC_ix2]
  exact step_newC m c t p q

/-- An index of the new cell-state array is in step t's block iff each coordinate is in the block's range. -/
theorem mem_blk7 (t : Fin cfg0.N) (i : S4096x1024.Idx) :
    i ∈ ((cfg0.win 7).blk t).view.set ↔ ∀ a : Fin 2, win0_7.index t a * S128x1024.size a ≤ (i a).val ∧ (i a).val < win0_7.index t a * S128x1024.size a + S128x1024.size a := by
  show i ∈ ((View.whole main_v22_1).slice (win0_7.rect t)).set ↔ _
  rw [View.set_slice_whole, Rect.mem_set_unit]
  exact Iff.rfl

/-- Every index of the new cell-state array is written back by the step that owns its row. -/
theorem cover7 (i : S4096x1024.Idx) :
    ∃ t : Fin cfg0.N, (cfg0.win 7).flush t = true ∧ i ∈ ((cfg0.win 7).blk t).view.set := by
  have hi0 : (i 0).val < 4096 := (i 0).isLt
  have hi1 : (i 1).val < 1024 := (i 1).isLt
  let t : Fin cfg0.N := ⟨(i 0).val / 128, lt_of_lt_of_eq (by omega : (i 0).val / 128 < 32) N_0.symm⟩
  have ht : t.val = (i 0).val / 128 := rfl
  have e := idx_facts t
  refine ⟨t, flush0_7 t, ?_⟩
  rw [mem_blk7]
  intro a
  match a with
  | ⟨0, _⟩ => show win0_7.index t (0 : Fin 2) * 128 ≤ (i 0).val ∧ (i 0).val < win0_7.index t (0 : Fin 2) * 128 + 128; omega
  | ⟨1, _⟩ => show win0_7.index t (1 : Fin 2) * 1024 ≤ (i 1).val ∧ (i 1).val < win0_7.index t (1 : Fin 2) * 1024 + 1024; omega

/-- After the run the new cell-state array is the specification's. -/
theorem final7 (c : Dev nD) : (Cell.dats m 0 c).arrAt 7 cfg0.N = arrC (args m c) :=
  (Cell.dats m 0 c).arrAt_eq_of_cover 7 (arrC (args m c)) (fun t _ => flushed7_eq m c t) cover7

/-! ## The run -/

/-- Every weakly fair execution of the kernel's program ends, nothing faulting, with the first result array the
    cell's new hidden state, the second its new cell state, and the fifteen argument arrays unchanged. -/
theorem run : θ_run defs (onTc (τ := τ) (main (F := Ideal))) ⟨m, fun _ => 0, ρ⟩ fun r => ∀ c : Dev nD,
      r.2.mem ((c : Thread nD τ).loc main_v22_0) = arrH (args m c)
      ∧ r.2.mem ((c : Thread nD τ).loc main_v22_1) = arrC (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨((h c).1 6).trans (final6 m c), ((h c).1 7).trans (final7 m c),
      ((h c).1 0).trans (((Cell.dats m 0 c).arrAt_in 0 rfl _).trans ((Cell.A_eq m c 0).trans (Cell.V_main_arg0 m c))),
      ((h c).1 1).trans (((Cell.dats m 0 c).arrAt_in 1 rfl _).trans ((Cell.A_eq m c 1).trans (Cell.V_main_arg1 m c))),
      ((h c).1 2).trans (((Cell.dats m 0 c).arrAt_in 2 rfl _).trans ((Cell.A_eq m c 2).trans (Cell.V_main_arg2 m c))),
      ((h c).2 main_arg3 (Pipeline.mem_restRefs_of main_arg3 (by decide) (by decide))).trans (Cell.V_main_arg3 m c),
      ((h c).2 main_arg4 (Pipeline.mem_restRefs_of main_arg4 (by decide) (by decide))).trans (Cell.V_main_arg4 m c),
      ((h c).2 main_arg5 (Pipeline.mem_restRefs_of main_arg5 (by decide) (by decide))).trans (Cell.V_main_arg5 m c),
      ((h c).2 main_arg6 (Pipeline.mem_restRefs_of main_arg6 (by decide) (by decide))).trans (Cell.V_main_arg6 m c),
      ((h c).2 main_arg7 (Pipeline.mem_restRefs_of main_arg7 (by decide) (by decide))).trans (Cell.V_main_arg7 m c),
      ((h c).2 main_arg8 (Pipeline.mem_restRefs_of main_arg8 (by decide) (by decide))).trans (Cell.V_main_arg8 m c),
      ((h c).2 main_arg9 (Pipeline.mem_restRefs_of main_arg9 (by decide) (by decide))).trans (Cell.V_main_arg9 m c),
      ((h c).2 main_arg10 (Pipeline.mem_restRefs_of main_arg10 (by decide) (by decide))).trans (Cell.V_main_arg10 m c),
      ((h c).2 main_arg11 (Pipeline.mem_restRefs_of main_arg11 (by decide) (by decide))).trans (Cell.V_main_arg11 m c),
      ((h c).2 main_arg12 (Pipeline.mem_restRefs_of main_arg12 (by decide) (by decide))).trans (Cell.V_main_arg12 m c),
      ((h c).2 main_arg13 (Pipeline.mem_restRefs_of main_arg13 (by decide) (by decide))).trans (Cell.V_main_arg13 m c),
      ((h c).2 main_arg14 (Pipeline.mem_restRefs_of main_arg14 (by decide) (by decide))).trans (Cell.V_main_arg14 m c)⟩)
    (Cell.run_main m ρ)

end Cert.KernelIdeal.CellValue

end
-- ==== Proof.CellRef.lean ====
/-
  The reference computation, read entry by entry, is the cell.

  The reference joins the input and the hidden state into one 4096 × 2048 array, stacks the three gate matrices
  into one 3072 × 2048 matrix and the three gate biases into one vector of 3072, contracts once over the 2048
  columns, adds the bias, and passes the result through 1 / (1 + e^(-z)) spelt out with a negation, an exponential,
  an addition of 1 and a division of 1. Columns 0–1023 of that array are the input gate, 1024–2047 the forget
  gate, 2048–3071 the output gate. The scale and the two halves of the linear candidate are three separate
  products with square matrices, each with its own bias. Read at row r and unit q, every one of these is the
  corresponding term of the cell's specification; the joined contraction splits into its two halves, and the two
  biases of the candidate regroup, by the two laws of the specification.
-/
import proofs.«180327_j54150947668389_2_alg».proof.Proof.Gen.ReferenceIdeal.Read
import proofs.«180327_j54150947668389_2_alg».proof.Proof.CellSpec
import proofs.«180327_j54150947668389_2_alg».proof.Proof.LibPieces
import Idealize.ShloMosaic.PureOps.IdealRules

noncomputable section

open scoped BigOperators

namespace Cert.ReferenceIdeal.CellValue

open Cert.ReferenceIdeal Cert.ReferenceIdeal.Gen Cert.ReferenceIdeal.Read Idealize.ShloMosaic Idealize.ShloMosaic.ValueIdx Cert.Cell
open Cert.Lib.Pieces

variable (x0 x1 x2 : (⟨S4096x1024, .f32⟩ : BufTy).Contents (Elt Ideal))
  (x3 : (⟨S1024x2048, .f32⟩ : BufTy).Contents (Elt Ideal)) (x4 : (⟨S1024, .f32⟩ : BufTy).Contents (Elt Ideal))
  (x5 : (⟨S1024x2048, .f32⟩ : BufTy).Contents (Elt Ideal)) (x6 : (⟨S1024, .f32⟩ : BufTy).Contents (Elt Ideal))
  (x7 : (⟨S1024x2048, .f32⟩ : BufTy).Contents (Elt Ideal)) (x8 : (⟨S1024, .f32⟩ : BufTy).Contents (Elt Ideal))
  (x9 : (⟨S1024x1024, .f32⟩ : BufTy).Contents (Elt Ideal)) (x10 : (⟨S1024, .f32⟩ : BufTy).Contents (Elt Ideal))
  (x11 : (⟨S1024x1024, .f32⟩ : BufTy).Contents (Elt Ideal)) (x12 : (⟨S1024, .f32⟩ : BufTy).Contents (Elt Ideal))
  (x13 : (⟨S1024x1024, .f32⟩ : BufTy).Contents (Elt Ideal)) (x14 : (⟨S1024, .f32⟩ : BufTy).Contents (Elt Ideal))

/-! ## The joined row -/

/-- The first 1024 columns of the joined array are the input. -/
theorem joined_lo (r : Fin 4096) (k : Fin 1024) : val_main_v0 (F := Ideal) x0 x1 (ix2 r (lo k)) = x0 (ix2 r k) := by
  unfold val_main_v0
  exact cols_piece _ _ 0 (by simp) x0 rfl 0 rfl r k (lo k) (by simp)

/-- The last 1024 columns of the joined array are the hidden state. -/
theorem joined_hi (r : Fin 4096) (k : Fin 1024) : val_main_v0 (F := Ideal) x0 x1 (ix2 r (hi k)) = x1 (ix2 r k) := by
  unfold val_main_v0
  exact cols_piece _ _ 1 (by simp) x1 rfl 1024 rfl r k (hi k) rfl

/-! ## The stacked gate matrices and biases -/

theorem stackW_0 (q : Fin 1024) (j : Fin 2048) (c : Fin 3072) (hc : c.val = q.val) :
    val_main_v1 (F := Ideal) x3 x5 x7 (ix2 c j) = x3 (ix2 q j) := by
  unfold val_main_v1
  exact rows_piece _ _ 0 (by simp) x3 rfl 0 rfl q j c (by omega)
theorem stackW_1 (q : Fin 1024) (j : Fin 2048) (c : Fin 3072) (hc : c.val = 1024 + q.val) :
    val_main_v1 (F := Ideal) x3 x5 x7 (ix2 c j) = x5 (ix2 q j) := by
  unfold val_main_v1
  exact rows_piece _ _ 1 (by simp) x5 rfl 1024 rfl q j c hc
theorem stackW_2 (q : Fin 1024) (j : Fin 2048) (c : Fin 3072) (hc : c.val = 2048 + q.val) :
    val_main_v1 (F := Ideal) x3 x5 x7 (ix2 c j) = x7 (ix2 q j) := by
  unfold val_main_v1
  exact rows_piece _ _ 2 (by simp) x7 rfl 2048 rfl q j c hc

theorem stackB_0 (q : Fin 1024) (c : Fin 3072) (hc : c.val = q.val) :
    val_main_v2 (F := Ideal) x4 x6 x8 (ix1 c) = x4 (ix1 q) := by
  unfold val_main_v2
  exact vec_piece _ _ 0 (by simp) x4 rfl 0 rfl q c (by omega)
theorem stackB_1 (q : Fin 1024) (c : Fin 3072) (hc : c.val = 1024 + q.val) :
    val_main_v2 (F := Ideal) x4 x6 x8 (ix1 c) = x6 (ix1 q) := by
  unfold val_main_v2
  exact vec_piece _ _ 1 (by simp) x6 rfl 1024 rfl q c hc
theorem stackB_2 (q : Fin 1024) (c : Fin 3072) (hc : c.val = 2048 + q.val) :
    val_main_v2 (F := Ideal) x4 x6 x8 (ix1 c) = x8 (ix1 q) := by
  unfold val_main_v2
  exact vec_piece _ _ 2 (by simp) x8 rfl 2048 rfl q c hc

/-! ## A gate -/

/-- Column c of the gates' array, when row c of the stacked matrix is row q of W and entry c of the stacked bias is
    entry q of b, is the gate of W and b at unit q. -/
theorem ref_gate (W : GateW) (b : Bias) (r : Fin 4096) (q : Fin 1024) (c : Fin 3072)
    (hW : ∀ j : Fin 2048, val_main_v1 (F := Ideal) x3 x5 x7 (ix2 c j) = W (ix2 q j))
    (hb : val_main_v2 (F := Ideal) x4 x6 x8 (ix1 c) = b (ix1 q)) :
    val_main_v13 (F := Ideal) x0 x1 x3 x4 x5 x6 x7 x8 (ix2 r c) = gate x0 x1 W b r q := by
  rw [val_main_v13_apply, val_main_v12_apply, val_main_cst_0_apply, val_main_v11_apply, val_main_v10_apply,
    val_main_cst_apply, val_main_v9_apply, val_main_v8_apply, val_main_v7_apply, val_main_v4_apply,
    val_main_v6_apply, val_main_v5_apply]
  rw [show FloatOps.ofBits (F := Ideal) .f32 0x3F800000#32 = (1 : EReal) from IdealRules.sign_bit.ideal_onePat .f32]
  have el : ∀ j : Fin 2048, lidx_main_v4 (ix2 r c) j = ix2 r j := fun j => funext fun a => by
    match a with
    | ⟨0, _⟩ => rfl
    | ⟨1, _⟩ => rfl
  have er : ∀ j : Fin 2048, idx_main_v3 (ridx_main_v4 (ix2 r c) j) = ix2 c j := fun j => funext fun a => by
    match a with
    | ⟨0, _⟩ => rfl
    | ⟨1, _⟩ => rfl
  have eb : idx_main_v5 (idx_main_v6 (ix2 r c)) = ix1 c := funext fun a => by
    match a with
    | ⟨0, _⟩ => rfl
  exact gate_of_joined x0 x1 W b r q
    (fun j => val_main_v0 (F := Ideal) x0 x1 (lidx_main_v4 (ix2 r c) j))
    (fun j => val_main_v3 (F := Ideal) x3 x5 x7 (ridx_main_v4 (ix2 r c) j))
    (val_main_v2 (F := Ideal) x4 x6 x8 (idx_main_v5 (idx_main_v6 (ix2 r c))))
    (fun k => by show val_main_v0 (F := Ideal) x0 x1 (lidx_main_v4 (ix2 r c) (lo k)) = _; rw [el]; exact joined_lo x0 x1 r k)
    (fun k => by show val_main_v0 (F := Ideal) x0 x1 (lidx_main_v4 (ix2 r c) (hi k)) = _; rw [el]; exact joined_hi x0 x1 r k)
    (fun j => by show val_main_v3 (F := Ideal) x3 x5 x7 (ridx_main_v4 (ix2 r c) j) = _; rw [val_main_v3_apply, er]; exact hW j)
    (by rw [eb]; exact hb)

/-! ## The square products and their biases -/

/-- The product of the input with the scale matrix transposed, at (r, q): row r against row q of the matrix. -/
theorem sq_v18 (r : Fin 4096) (q : Fin 1024) : val_main_v18 (F := Ideal) x0 x9 (ix2 r q) = dotSq x0 x9 r q := by
  rw [val_main_v18_apply]
  unfold dotSq
  refine Finset.sum_congr rfl fun k _ => ?_
  rw [val_main_v17_apply]
  have el : lidx_main_v18 (ix2 r q) k = ix2 r k := funext fun a => by
    match a with
    | ⟨0, _⟩ => rfl
    | ⟨1, _⟩ => rfl
  have er : idx_main_v17 (ridx_main_v18 (ix2 r q) k) = ix2 q k := funext fun a => by
    match a with
    | ⟨0, _⟩ => rfl
    | ⟨1, _⟩ => rfl
  rw [el, er]

/-- The product of the input with the candidate's input matrix transposed, at (r, q): row r against row q of the matrix. -/
theorem sq_v23 (r : Fin 4096) (q : Fin 1024) : val_main_v23 (F := Ideal) x0 x11 (ix2 r q) = dotSq x0 x11 r q := by
  rw [val_main_v23_apply]
  unfold dotSq
  refine Finset.sum_congr rfl fun k _ => ?_
  rw [val_main_v22_apply]
  have el : lidx_main_v23 (ix2 r q) k = ix2 r k := funext fun a => by
    match a with
    | ⟨0, _⟩ => rfl
    | ⟨1, _⟩ => rfl
  have er : idx_main_v22 (ridx_main_v23 (ix2 r q) k) = ix2 q k := funext fun a => by
    match a with
    | ⟨0, _⟩ => rfl
    | ⟨1, _⟩ => rfl
  rw [el, er]

/-- The product of the hidden state with the candidate's state matrix transposed, at (r, q): row r against row q of the matrix. -/
theorem sq_v28 (r : Fin 4096) (q : Fin 1024) : val_main_v28 (F := Ideal) x1 x13 (ix2 r q) = dotSq x1 x13 r q := by
  rw [val_main_v28_apply]
  unfold dotSq
  refine Finset.sum_congr rfl fun k _ => ?_
  rw [val_main_v27_apply]
  have el : lidx_main_v28 (ix2 r q) k = ix2 r k := funext fun a => by
    match a with
    | ⟨0, _⟩ => rfl
    | ⟨1, _⟩ => rfl
  have er : idx_main_v27 (ridx_main_v28 (ix2 r q) k) = ix2 q k := funext fun a => by
    match a with
    | ⟨0, _⟩ => rfl
    | ⟨1, _⟩ => rfl
  rw [el, er]

/-- The bias repeated down the rows, at (r, q): its entry q. -/
theorem bias_v20 (r : Fin 4096) (q : Fin 1024) : val_main_v20 (F := Ideal) x10 (ix2 r q) = x10 (ix1 q) := by
  rw [val_main_v20_apply, val_main_v19_apply]
  exact congrArg x10 (funext fun a => by
    match a with
    | ⟨0, _⟩ => rfl)

/-- The bias repeated down the rows, at (r, q): its entry q. -/
theorem bias_v25 (r : Fin 4096) (q : Fin 1024) : val_main_v25 (F := Ideal) x12 (ix2 r q) = x12 (ix1 q) := by
  rw [val_main_v25_apply, val_main_v24_apply]
  exact congrArg x12 (funext fun a => by
    match a with
    | ⟨0, _⟩ => rfl)

/-- The bias repeated down the rows, at (r, q): its entry q. -/
theorem bias_v30 (r : Fin 4096) (q : Fin 1024) : val_main_v30 (F := Ideal) x14 (ix2 r q) = x14 (ix1 q) := by
  rw [val_main_v30_apply, val_main_v29_apply]
  exact congrArg x14 (funext fun a => by
    match a with
    | ⟨0, _⟩ => rfl)

/-! ## The two results -/

/-- The fifteen arguments as the cell's. -/
abbrev args : Args := ⟨x0, x1, x2, x3, x4, x5, x6, x7, x8, x9, x10, x11, x12, x13, x14⟩

/-- The reference's second result at (r, q) is the new cell state. -/
theorem ref_newC (r : Fin 4096) (q : Fin 1024) :
    val_main_v37 (F := Ideal) x0 x1 x2 x3 x4 x5 x6 x7 x8 x9 x10 x11 x12 x13 x14 (ix2 r q) = newC (args x0 x1 x2 x3 x4 x5 x6 x7 x8 x9 x10 x11 x12 x13 x14) r q := by
  rw [val_main_v37_apply, val_main_v35_apply, val_main_v36_apply, val_main_v34_apply, val_main_v33_apply,
    val_main_v32_apply, val_main_v31_apply, val_main_v26_apply, val_main_v21_apply, val_main_v15_apply,
    val_main_v14_apply]
  have e15 : idx_main_v15 (ix2 r q) = ix2 r (⟨1024 + q.val, by have := q.isLt; omega⟩ : Fin 3072) := funext fun a => by
    match a with
    | ⟨0, _⟩ => rfl
    | ⟨1, _⟩ => rfl
  have e14 : idx_main_v14 (ix2 r q) = ix2 r (⟨q.val, by have := q.isLt; omega⟩ : Fin 3072) := funext fun a => by
    match a with
    | ⟨0, _⟩ => rfl
    | ⟨1, _⟩ => rfl
  rw [e15, e14,
    ref_gate x0 x1 x3 x4 x5 x6 x7 x8 x5 x6 r q _ (fun j => stackW_1 x3 x5 x7 q j _ rfl) (stackB_1 x4 x6 x8 q _ rfl),
    ref_gate x0 x1 x3 x4 x5 x6 x7 x8 x3 x4 r q _ (fun j => stackW_0 x3 x5 x7 q j _ rfl) (stackB_0 x4 x6 x8 q _ rfl),
    sq_v18, sq_v23, sq_v28, bias_v20, bias_v25, bias_v30]
  unfold newC scale
  rw [← lin_of_two (args x0 x1 x2 x3 x4 x5 x6 x7 x8 x9 x10 x11 x12 x13 x14) r q _ _ rfl rfl]
  rfl

/-- The reference's first result at (r, q) is the new hidden state. -/
theorem ref_newH (r : Fin 4096) (q : Fin 1024) :
    val_main_v39 (F := Ideal) x0 x1 x2 x3 x4 x5 x6 x7 x8 x9 x10 x11 x12 x13 x14 (ix2 r q) = newH (args x0 x1 x2 x3 x4 x5 x6 x7 x8 x9 x10 x11 x12 x13 x14) r q := by
  rw [val_main_v39_apply, val_main_v38_apply, ref_newC, val_main_v16_apply]
  have e16 : idx_main_v16 (ix2 r q) = ix2 r (⟨2048 + q.val, by have := q.isLt; omega⟩ : Fin 3072) := funext fun a => by
    match a with
    | ⟨0, _⟩ => rfl
    | ⟨1, _⟩ => rfl
  rw [e16, ref_gate x0 x1 x3 x4 x5 x6 x7 x8 x7 x8 r q _ (fun j => stackW_2 x3 x5 x7 q j _ rfl) (stackB_2 x4 x6 x8 q _ rfl)]
  rfl

/-- The reference's second result, as an array, is the new cell state. -/
theorem ref_arrC : val_main_v37 (F := Ideal) x0 x1 x2 x3 x4 x5 x6 x7 x8 x9 x10 x11 x12 x13 x14 = arrC (args x0 x1 x2 x3 x4 x5 x6 x7 x8 x9 x10 x11 x12 x13 x14) := by
  funext i
  rw [eq_ix2 i]
  exact ref_newC x0 x1 x2 x3 x4 x5 x6 x7 x8 x9 x10 x11 x12 x13 x14 (i 0) (i 1)

/-- The reference's first result, as an array, is the new hidden state. -/
theorem ref_arrH : val_main_v39 (F := Ideal) x0 x1 x2 x3 x4 x5 x6 x7 x8 x9 x10 x11 x12 x13 x14 = arrH (args x0 x1 x2 x3 x4 x5 x6 x7 x8 x9 x10 x11 x12 x13 x14) := by
  funext i
  rw [eq_ix2 i]
  exact ref_newH x0 x1 x2 x3 x4 x5 x6 x7 x8 x9 x10 x11 x12 x13 x14 (i 0) (i 1)

end Cert.ReferenceIdeal.CellValue

end
-- ==== Proof.lean ====
/-
  A fused recurrent cell against its reference: the certificate's five claims.

  The kernel walks a batch of 4096 rows in 32 tiles of 128. Ahead of the launch the host lays the weights out as two
  slabs — the input-side halves of the three gate matrices with the candidate's and the scale's input matrices,
  transposed and side by side; the state-side halves with the candidate's state matrix — and the five biases as one
  row. Each step multiplies its tile of the input by the first slab and its tile of the hidden state by the second,
  adds the bias row, and forms the gates, the candidate, the new cell state and the new hidden state of its rows.

  The reference joins the input and the hidden state, contracts once with the stacked gate matrices, and forms the
  scale and the candidate from three separate products. At the ideal values the two agree entry by entry: both are
  the cell of the specification, the sums only grouped differently, and addition of extended reals is commutative
  and associative at the infinities too — the precondition that the inputs are finite is never opened.

  The three programs run to their ends with their arguments unchanged: the kernel's two readings by the walk over
  the tiles, the reference by its straight line of host operations. Nothing was rewritten in idealizing the kernel,
  so that claim is empty.
-/
import proofs.«180327_j54150947668389_2_alg».proof.Defs
import proofs.«180327_j54150947668389_2_alg».proof.Proof.Gen.Kernel
import proofs.«180327_j54150947668389_2_alg».proof.Proof.Gen.KernelIdeal
import proofs.«180327_j54150947668389_2_alg».proof.Proof.Gen.ReferenceIdeal
import proofs.«180327_j54150947668389_2_alg».proof.Proof.Gen.ReferenceIdeal.Read
import proofs.«180327_j54150947668389_2_alg».proof.Proof.Gen.Pre_finite_inputs
import proofs.«180327_j54150947668389_2_alg».proof.Proof.CellFrameBits
import proofs.«180327_j54150947668389_2_alg».proof.Proof.CellFrameIdeal
import proofs.«180327_j54150947668389_2_alg».proof.Proof.CellValue
import proofs.«180327_j54150947668389_2_alg».proof.Proof.CellRef
import Idealize.ShloMosaic.Adequacy
import Idealize.ShloMosaic.Init

noncomputable section

namespace Cert.Proof

open Idealize.ShloMosaic Idealize.ShloMosaic.TcCoe Idealize.SL.Sem

/-- The kernel as printed runs to its end and leaves its arguments as they were. -/
theorem frame_k : Cert.frame_Kernel := fun m ρ _ => Cert.Kernel.Cell.frame m ρ

/-- So does the kernel read at the ideal values. -/
theorem frame_ki : Cert.frame_KernelIdeal := fun m ρ _ => Cert.KernelIdeal.Cell.frame m ρ

/-- And the reference: its run, with the two results forgotten. -/
theorem frame_ri : Cert.frame_ReferenceIdeal := fun m ρ _ =>
  (θ_run Cert.ReferenceIdeal.defs _ _).mono (fun _ h c => (h c).2.2) (Cert.ReferenceIdeal.Value.run (F := Ideal) m ρ)

/-- Idealizing rewrote nothing. -/
theorem preserves : Cert.preserves_Kernel_KernelIdeal := trivial

/-- From memories that agree on the fifteen arguments, the kernel and the reference end with the same two arrays:
    the cell's new hidden state and its new cell state of those arguments. -/
theorem algebraic : Cert.algebraic_KernelIdeal_ReferenceIdeal := by
  intro m ρ m' ρ' _ hagree
  refine ⟨fun c => Cert.Cell.arrH (Cert.KernelIdeal.CellValue.args m c), fun c => Cert.Cell.arrC (Cert.KernelIdeal.CellValue.args m c),
    Cert.KernelIdeal.CellValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12, e13, e14⟩ := hagree c
    rw [Cert.ReferenceIdeal.Read.val_main_v39_eq, Cert.ReferenceIdeal.CellValue.ref_arrH, e0, e1, e2, e3, e4, e5, e6, e7, e8, e9, e10, e11, e12, e13, e14]
  · obtain ⟨e0, e1, e2, e3, e4, e5, e6, e7, e8, e9, e10, e11, e12, e13, e14⟩ := hagree c
    rw [Cert.ReferenceIdeal.Read.val_main_v37_eq, Cert.ReferenceIdeal.CellValue.ref_arrC, e0, e1, e2, e3, e4, e5, e6, e7, e8, e9, e10, e11, e12, e13, e14]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
